-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x2048x1024 : Shape := ⟨3, ![32, 2048, 1024]⟩
abbrev S1x32x1024 : Shape := ⟨3, ![1, 32, 1024]⟩
abbrev S2048x512 : Shape := ⟨2, ![2048, 512]⟩
abbrev S512 : Shape := ⟨1, ![512]⟩
abbrev S512x1 : Shape := ⟨2, ![512, 1]⟩
abbrev S1 : Shape := ⟨1, ![1]⟩
abbrev S_ : Shape := ⟨0, ![]⟩

class Facts : Prop where
  bcast_S_S32x2048x1024 : S_.BroadcastsInDim S32x2048x1024 (![] : Fin 0 → Fin S32x2048x1024.rank)
  reducesTo_S32x2048x1024_S_d0_1_2 : S32x2048x1024.ReducesTo [0, 1, 2] S_
  h_S_ : 0 < S_.numel
  bcast_S_S1x32x1024 : S_.BroadcastsInDim S1x32x1024 (![] : Fin 0 → Fin S1x32x1024.rank)
  reducesTo_S1x32x1024_S_d0_1_2 : S1x32x1024.ReducesTo [0, 1, 2] S_
  bcast_S_S2048x512 : S_.BroadcastsInDim S2048x512 (![] : Fin 0 → Fin S2048x512.rank)
  reducesTo_S2048x512_S_d0_1 : S2048x512.ReducesTo [0, 1] S_
  bcast_S_S512 : S_.BroadcastsInDim S512 (![] : Fin 0 → Fin S512.rank)
  reducesTo_S512_S_d0 : S512.ReducesTo [0] S_
  bcast_S_S512x1 : S_.BroadcastsInDim S512x1 (![] : Fin 0 → Fin S512x1.rank)
  reducesTo_S512x1_S_d0_1 : S512x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S512x1 .f32) (main_arg5 : FVec F S1 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x1 .f32 := Host.absf main_arg4
  let main_cst_6 : FVec F S_ .f32 := constant S_ .f32 0x7F800000#32
  let main_v20 : FVec F S512x1 .f32 := broadcastInDim S512x1 ![] bcast_S_S512x1 main_cst_6
  let main_v21 : IVec S512x1 1 := cmpf .olt main_v19 main_v20
  let main_c_7 : IVec S_ 1 := constantI S_ 1 1#1
  let main_v22 : IVec S_ 1 := (fun x v => Host.reduce IntOp.andi x v reducesTo_S512x1_S_d0_1 h_S_) main_v21 main_c_7
  let main_v23 : IVec S_ 1 := andi main_v18 main_v22
  let main_v24 : FVec F S1 .f32 := Host.absf main_arg5
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  main_v28

def fn {F : FTy → Type} [FloatOps F] (main_arg0 : FVec F S32x2048x1024 .f32) (main_arg1 : FVec F S1x32x1024 .f32) (main_arg2 : FVec F S2048x512 .f32) (main_arg3 : FVec F S512 .f32) (main_arg4 : FVec F S512x1 .f32) (main_arg5 : FVec F S1 .f32) : IVec S_ 1 :=
  let main_v0 : FVec F S32x2048x1024 .f32 := Host.absf main_arg0
  let main_cst : FVec F S_ .f32 := constant S_ .f32 0x7F800000#32
  let main_v1 : FVec F S32x2048x1024 .f32 := broadcastInDim S32x2048x1024 ![] bcast_S_S32x2048x1024 main_cst
  let main_v2 : IVec S32x2048x1024 1 := cmpf .olt main_v0 main_v1
  let main_c : IVec S_ 1 := constantI S_ 1 1#1
  let main_v3 : IVec S_ 1 := (fun x v => Host.reduce IntOp.andi x v reducesTo_S32x2048x1024_S_d0_1_2 h_S_) main_v2 main_c
  let main_v4 : FVec F S1x32x1024 .f32 := Host.absf main_arg1
  let main_cst_0 : FVec F S_ .f32 := constant S_ .f32 0x7F800000#32
  let main_v5 : FVec F S1x32x1024 .f32 := broadcastInDim S1x32x1024 ![] bcast_S_S1x32x1024 main_cst_0
  let main_v6 : IVec S1x32x1024 1 := cmpf .olt main_v4 main_v5
  let main_c_1 : IVec S_ 1 := constantI S_ 1 1#1
  let main_v7 : IVec S_ 1 := (fun x v => Host.reduce IntOp.andi x v reducesTo_S1x32x1024_S_d0_1_2 h_S_) main_v6 main_c_1
  let main_v8 : IVec S_ 1 := andi main_v3 main_v7
  let main_v9 : FVec F S2048x512 .f32 := Host.absf main_arg2
  let main_cst_2 : FVec F S_ .f32 := constant S_ .f32 0x7F800000#32
  let main_v10 : FVec F S2048x512 .f32 := broadcastInDim S2048x512 ![] bcast_S_S2048x512 main_cst_2
  let main_v11 : IVec S2048x512 1 := cmpf .olt main_v9 main_v10
  let main_c_3 : IVec S_ 1 := constantI S_ 1 1#1
  let main_v12 : IVec S_ 1 := (fun x v => Host.reduce IntOp.andi x v reducesTo_S2048x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_v13 main_v16
-- ==== Kernel.lean ====
abbrev S32x2048x1024 : Shape := ⟨3, ![32, 2048, 1024]⟩
abbrev S1x32x1024 : Shape := ⟨3, ![1, 32, 1024]⟩
abbrev S2048x512 : Shape := ⟨2, ![2048, 512]⟩
abbrev S512 : Shape := ⟨1, ![512]⟩
abbrev S512x1 : Shape := ⟨2, ![512, 1]⟩
abbrev S1 : Shape := ⟨1, ![1]⟩
abbrev S32x1024 : Shape := ⟨2, ![32, 1024]⟩
abbrev S1024x512 : Shape := ⟨2, ![1024, 512]⟩
abbrev S32x512 : Shape := ⟨2, ![32, 512]⟩
abbrev S32x1x512 : Shape := ⟨3, ![32, 1, 512]⟩
abbrev S32x1x1024 : Shape := ⟨3, ![32, 1, 1024]⟩
abbrev S1x512x1024 : Shape := ⟨3, ![1, 512, 1024]⟩
abbrev S1x1x512 : Shape := ⟨3, ![1, 1, 512]⟩
abbrev S1x1x1024 : Shape := ⟨3, ![1, 1, 1024]⟩
abbrev S1x1024 : Shape := ⟨2, ![1, 1024]⟩
abbrev S512x1024 : Shape := ⟨2, ![512, 1024]⟩
abbrev S512x512 : Shape := ⟨2, ![512, 512]⟩
abbrev S1x512 : Shape := ⟨2, ![1, 512]⟩
abbrev S1x1 : Shape := ⟨2, ![1, 1]⟩
abbrev S1024 : Shape := ⟨1, ![1024]⟩

abbrev nBuf : Space → Nat
  | .hbm => 14
  | .vmem => 10
  | .smem => 0
  | _ => 0

abbrev bufTy : (tb : Table) → Fin (tcTables nBuf tb) → BufTy
  | .hbm, ⟨0, _⟩ => ⟨S32x2048x1024, .f32⟩
  | .hbm, ⟨1, _⟩ => ⟨S1x32x1024, .f32⟩
  | .hbm, ⟨2, _⟩ => ⟨S2048x512, .f32⟩
  | .hbm, ⟨3, _⟩ => ⟨S512, .f32⟩
  | .hbm, ⟨4, _⟩ => ⟨S512x1, .f32⟩
  | .hbm, ⟨5, _⟩ => ⟨S1, .f32⟩
  | .hbm, ⟨6, _⟩ => ⟨S32x1024, .f32⟩
  | .hbm, ⟨7, _⟩ => ⟨S1024x512, .f32⟩
  | .hbm, ⟨8, _⟩ => ⟨S1024x512, .f32⟩
  | .hbm, ⟨9, _⟩ => ⟨S32x512, .f32⟩
  | .hbm, ⟨10, _⟩ => ⟨S32x1x512, .f32⟩
  | .hbm, ⟨11, _⟩ => ⟨S1024x512, .bf16⟩
  | .hbm, ⟨12, _⟩ => ⟨S512x1, .bf16⟩
  | .hbm, ⟨13, _⟩ => ⟨S32x1x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1x512, .f32⟩
  | .local _ .vmem, ⟨3, _⟩ => ⟨S1x1x512, .f32⟩
  | .local _ .vmem, ⟨4, _⟩ => ⟨S1024x512, .bf16⟩
  | .local _ .vmem, ⟨5, _⟩ => ⟨S512, .f32⟩
  | .local _ .vmem, ⟨6, _⟩ => ⟨S512x1, .bf16⟩
  | .local _ .vmem, ⟨7, _⟩ => ⟨S1, .f32⟩
  | .local _ .vmem, ⟨8, _⟩ => ⟨S1x1x1024, .f32⟩
  | .local _ .vmem, ⟨9, _⟩ => ⟨S1x1x1024, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![32, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512x1 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  shapeCasts_S1x32x1024_S32x1024 : S1x32x1024.ShapeCasts S32x1024
  slices_S2048x512_S1024x512_0_0 : S2048x512.Slices ![0, 0] S1024x512
  slices_S2048x512_S1024x512_1024_0 : S2048x512.Slices ![1024, 0] S1024x512
  shapeCasts_S32x512_S32x1x512 : S32x512.ShapeCasts S32x1x512
  bitsLt_bf16_f32 : FTy.bits .bf16 < FTy.bits .f32
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  shapeCasts_S1x1024_S1x1x1024 : S1x1024.ShapeCasts S1x1x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1x1x512_S1x1x512_0_0_0 : ∀ a, (![0, 0, 0] : Fin 3 → Nat) a + S1x1x512.size a ≤ S1x1x512.size a
  h_S1x1x512 : 0 < S1x1x512.numel
  shapeCasts_S1x1x512_S1x512 : S1x1x512.ShapeCasts S1x512
  broadcasts_S1x512_S512x512 : S1x512.Broadcasts S512x512
  inb_S512_S512_0 : ∀ a, (![0] : Fin 1 → Nat) a + S512.size a ≤ S512.size a
  h_S512 : 0 < S512.numel
  shapeCasts_S512_S1x512 : S512.ShapeCasts S1x512
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S1_S1_0 : ∀ a, (![0] : Fin 1 → Nat) a + S1.size a ≤ S1.size a
  h_S1 : 0 < S1.numel
  shapeCasts_S1_S1x1 : S1.ShapeCasts S1x1
  broadcasts_S1x1_S512x1 : S1x1.Broadcasts S512x1
  reduces_S512x1_S512 : S512x1.Reduces [1] S512
  shapeCasts_S512_S512x1 : S512.ShapeCasts S512x1
  broadcasts_S512x1_S512x1024 : S512x1.Broadcasts S512x1024
  reduces_S512x1024_S1024 : S512x1024.Reduces [0] S1024
  shapeCasts_S1024_S1x1024 : S1024.ShapeCasts S1x1024
  dot_S32x1024_S1024x512_S32x512_1_0_0_1_n_n_wf : DotDims.WF S32x1024 S1024x512 S32x512 [1] [0] [0] [1] [] []
  dot_S512x1024_S1024x512_S512x512_1_0_0_1_n_n_wf : DotDims.WF S512x1024 S1024x512 S512x512 [1] [0] [0] [1] [] []
  dot_S512x512_S512x1_S512x1_1_0_0_1_n_n_wf : DotDims.WF S512x512 S512x1 S512x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S32x2048x1024.size a
  hwx0_0 : ∀ i : grid0.Coords, EltTy.bits .f32 = 32 ∨ (Rect.block (s := S32x2048x1024) S1x512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x512.size a ≤ S32x1x512.size a
  hwx0_1 : ∀ i : grid0.Coords, EltTy.bits .f32 = 32 ∨ (Rect.block (s := S32x1x512) S1x1x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S1024x512.size a
  hwx0_2 : ∀ i : grid0.Coords, EltTy.bits .bf16 = 32 ∨ (Rect.block (s := S1024x512) S1024x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512.size a ≤ S512.size a
  hwx0_3 : ∀ i : grid0.Coords, EltTy.bits .f32 = 32 ∨ (Rect.block (s := S512) S512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x1.size a ≤ S512x1.size a
  hwx0_4 : ∀ i : grid0.Coords, EltTy.bits .bf16 = 32 ∨ (Rect.block (s := S512x1) S512x1.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1.size a ≤ S1.size a
  hwx0_5 : ∀ i : grid0.Coords, EltTy.bits .f32 = 32 ∨ (Rect.block (s := S1) S1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x1024.size a ≤ S32x1x1024.size a
  hwx0_6 : ∀ i : grid0.Coords, EltTy.bits .f32 = 32 ∨ (Rect.block (s := S32x1x1024) S1x1x1024.size (cc0_transform_6 i) (hinb0_6 i)).WholeWords (EltTy.packing .f32)

variable [Facts₀]

def dot_S32x1024_S1024x512_S32x512_1_0_0_1_n_n : DotDims S32x1024 S1024x512 S32x512 where
  lhsContracting := [1]
  rhsContracting := [0]
  lhsNonContracting := [0]
  rhsNonContracting := [1]
  lhsBatch := []
  rhsBatch := []
  wf := dot_S32x1024_S1024x512_S32x512_1_0_0_1_n_n_wf
def dot_S512x1024_S1024x512_S512x512_1_0_0_1_n_n : DotDims S512x1024 S1024x512 S512x512 where
  lhsContracting := [1]
  rhsContracting := [0]
  lhsNonContracting := [0]
  rhsNonContracting := [1]
  lhsBatch := []
  rhsBatch := []
  wf := dot_S512x1024_S1024x512_S512x512_1_0_0_1_n_n_wf
def dot_S512x512_S512x1_S512x1_1_0_0_1_n_n : DotDims S512x512 S512x1 S512x1 where
  lhsContracting := [1]
  rhsContracting := [0]
  lhsNonContracting := [0]
  rhsNonContracting := [1]
  lhsBatch := []
  rhsBatch := []
  wf := dot_S512x512_S512x1_S512x1_1_0_0_1_n_n_wf

abbrev win0_0 : Pipeline.Window sig grid0 :=
  Pipeline.Window.ofSpec (Memref.whole main_arg0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1x1x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1024x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S512x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7) S1x1x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S32x2048x1024 : Shape := ⟨3, ![32, 2048, 1024]⟩
abbrev S1x32x1024 : Shape := ⟨3, ![1, 32, 1024]⟩
abbrev S2048x512 : Shape := ⟨2, ![2048, 512]⟩
abbrev S512 : Shape := ⟨1, ![512]⟩
abbrev S512x1 : Shape := ⟨2, ![512, 1]⟩
abbrev S1 : Shape := ⟨1, ![1]⟩
abbrev S32x1x1024 : Shape := ⟨3, ![32, 1, 1024]⟩
abbrev S32x2048x2048 : Shape := ⟨3, ![32, 2048, 2048]⟩
abbrev S32x2048x512 : Shape := ⟨3, ![32, 2048, 512]⟩
abbrev S1x1x512 : Shape := ⟨3, ![1, 1, 512]⟩
abbrev S_ : Shape := ⟨0, ![]⟩
abbrev S32x2048x1 : Shape := ⟨3, ![32, 2048, 1]⟩
abbrev S1x1x1 : Shape := ⟨3, ![1, 1, 1]⟩
abbrev S32x2048 : Shape := ⟨2, ![32, 2048]⟩
abbrev S32x1x2048 : Shape := ⟨3, ![32, 1, 2048]⟩

abbrev nBuf : Space → Nat
  | .hbm => 38
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S1x32x1024, .f32⟩
  | .hbm, ⟨2, _⟩ => ⟨S2048x512, .f32⟩
  | .hbm, ⟨3, _⟩ => ⟨S512, .f32⟩
  | .hbm, ⟨4, _⟩ => ⟨S512x1, .f32⟩
  | .hbm, ⟨5, _⟩ => ⟨S1, .f32⟩
  | .hbm, ⟨6, _⟩ => ⟨S32x1x1024, .f32⟩
  | .hbm, ⟨7, _⟩ => ⟨S32x2048x1024, .f32⟩
  | .hbm, ⟨8, _⟩ => ⟨S32x2048x2048, .f32⟩
  | .hbm, ⟨9, _⟩ => ⟨S32x2048x512, .f32⟩
  | .hbm, ⟨10, _⟩ => ⟨S1x1x512, .f32⟩
  | .hbm, ⟨11, _⟩ => ⟨S32x2048x512, .f32⟩
  | .hbm, ⟨12, _⟩ => ⟨S32x2048x512, .f32⟩
  | .hbm, ⟨13, _⟩ => ⟨S_, .f32⟩
  | .hbm, ⟨14, _⟩ => ⟨S32x2048x512, .f32⟩
  | .hbm, ⟨15, _⟩ => ⟨S32x2048x512, .i1⟩
  | .hbm, ⟨16, _⟩ => ⟨S_, .f32⟩
  | .hbm, ⟨17, _⟩ => ⟨S32x2048x512, .f32⟩
  | .hbm, ⟨18, _⟩ => ⟨S32x2048x512, .f32⟩
  | .hbm, ⟨19, _⟩ => ⟨S32x2048x512, .f32⟩
  | .hbm, ⟨20, _⟩ => ⟨S32x2048x1, .f32⟩
  | .hbm, ⟨21, _⟩ => ⟨S1x1x1, .f32⟩
  | .hbm, ⟨22, _⟩ => ⟨S32x2048x1, .f32⟩
  | .hbm, ⟨23, _⟩ => ⟨S32x2048x1, .f32⟩
  | .hbm, ⟨24, _⟩ => ⟨S_, .f32⟩
  | .hbm, ⟨25, _⟩ => ⟨S32x2048, .f32⟩
  | .hbm, ⟨26, _⟩ => ⟨S_, .f32⟩
  | .hbm, ⟨27, _⟩ => ⟨S32x2048, .f32⟩
  | .hbm, ⟨28, _⟩ => ⟨S32x2048, .f32⟩
  | .hbm, ⟨29, _⟩ => ⟨S32x2048x1, .f32⟩
  | .hbm, ⟨30, _⟩ => ⟨S32x2048x1, .f32⟩
  | .hbm, ⟨31, _⟩ => ⟨S32x2048x1, .f32⟩
  | .hbm, ⟨32, _⟩ => ⟨S_, .f32⟩
  | .hbm, ⟨33, _⟩ => ⟨S32x2048, .f32⟩
  | .hbm, ⟨34, _⟩ => ⟨S32x2048x1, .f32⟩
  | .hbm, ⟨35, _⟩ => ⟨S32x2048x1, .f32⟩
  | .hbm, ⟨36, _⟩ => ⟨S32x1x2048, .f32⟩
  | .hbm, ⟨37, _⟩ => ⟨S32x1x1024, .f32⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩

abbrev nD : Nat := 1
abbrev τ : Topo := Topo.v7x

variable {F : FTy → Type} [FloatOps F]

class Facts₀ : Prop where
  transposes_S1x32x1024_S32x1x1024_1_0_2 : S1x32x1024.Transposes [1, 0, 2] S32x1x1024
  bcast_S32x1x1024_S32x2048x1024_0_1_2 : S32x1x1024.BroadcastsInDim S32x2048x1024 (![0, 1, 2] : Fin 3 → Fin S32x2048x1024.rank)
  concatenates_S32x2048x1024_S32x2048x1024_S32x2048x2048_d2 : Shape.Concatenates [S32x2048x1024, S32x2048x1024] S32x2048x2048 2
  bcast_S512_S1x1x512_2 : S512.BroadcastsInDim S1x1x512 (![2] : Fin 1 → Fin S1x1x512.rank)
  bcast_S1x1x512_S32x2048x512_0_1_2 : S1x1x512.BroadcastsInDim S32x2048x512 (![0, 1, 2] : Fin 3 → Fin S32x2048x512.rank)
  bcast_S_S32x2048x512 : S_.BroadcastsInDim S32x2048x512 (![] : Fin 0 → Fin S32x2048x512.rank)
  bcast_S1_S1x1x1_2 : S1.BroadcastsInDim S1x1x1 (![2] : Fin 1 → Fin S1x1x1.rank)
  bcast_S1x1x1_S32x2048x1_0_1_2 : S1x1x1.BroadcastsInDim S32x2048x1 (![0, 1, 2] : Fin 3 → Fin S32x2048x1.rank)
  reducesTo_S32x2048x1_S32x2048_d2 : S32x2048x1.ReducesTo [2] S32x2048
  h_S_ : 0 < S_.numel
  bcast_S_S32x2048 : S_.BroadcastsInDim S32x2048 (![] : Fin 0 → Fin S32x2048.rank)
  bcast_S32x2048_S32x2048x1_0_1 : S32x2048.BroadcastsInDim S32x2048x1 (![0, 1] : Fin 2 → Fin S32x2048x1.rank)
  shapeCasts_S32x2048x1_S32x1x2048 : S32x2048x1.ShapeCasts S32x1x2048
  dot_S32x2048x2048_S2048x512_S32x2048x512_2_0_01_1_n_n_wf : DotDims.WF S32x2048x2048 S2048x512 S32x2048x512 [2] [0] [0, 1] [1] [] []
  dot_S32x2048x512_S512x1_S32x2048x1_2_0_01_1_n_n_wf : DotDims.WF S32x2048x512 S512x1 S32x2048x1 [2] [0] [0, 1] [1] [] []
  dot_S32x1x2048_S32x2048x1024_S32x1x1024_2_1_1_2_0_0_wf : DotDims.WF S32x1x2048 S32x2048x1024 S32x1x1024 [2] [1] [1] [2] [0] [0]

variable [Facts₀]

def dot_S32x2048x2048_S2048x512_S32x2048x512_2_0_01_1_n_n : DotDims S32x2048x2048 S2048x512 S32x2048x512 where
  lhsContracting := [2]
  rhsContracting := [0]
  lhsNonContracting := [0, 1]
  rhsNonContracting := [1]
  lhsBatch := []
  rhsBatch := []
  wf := dot_S32x2048x2048_S2048x512_S32x2048x512_2_0_01_1_n_n_wf
def dot_S32x2048x512_S512x1_S32x2048x1_2_0_01_1_n_n : DotDims S32x2048x512 S512x1 S32x2048x1 where
  lhsContracting := [2]
  rhsContracting := [0]
  lhsNonContracting := [0, 1]
  rhsNonContracting := [1]
  lhsBatch := []
  rhsBatch := []
  wf := dot_S32x2048x512_S512x1_S32x2048x1_2_0_01_1_n_n_wf
def dot_S32x1x2048_S32x2048x1024_S32x1x1024_2_1_1_2_0_0 : DotDims S32x1x2048 S32x2048x1024 S32x1x1024 where
  lhsContracting := [2]
  rhsContracting := [1]
  lhsNonContracting := [1]
  rhsNonContracting := [2]
  lhsBatch := [0]
  rhsBatch := [0]
  wf := dot_S32x1x2048_S32x2048x1024_S32x1x1024_2_1_1_2_0_0_wf

class Facts : Prop extends Facts₀ where

variable [Facts]
-- ==== Proof.Spec.lean ====
/-
  Additive attention whose softmax runs over a single logit, as one function of the six argument arrays.

  For batch row `b` and sequence position `s` the logit is
      score b s = Σ_j leaky( Σ_q enc[b,s,q]·W1[1024+q, j] + Σ_q hid[0,b,q]·W1[q, j] + b1[j] ) · W2[j,0] + b2[0],
  the weight of the position is the softmax of that one logit over an axis of extent one,
      soft1 x = exp (x − x) / exp (x − x),
  and the context is the weighted sum of the encoder rows,
      ctx[b, 0, e] = Σ_{s < 2048} soft1 (score b s) · enc[b, s, e].
  Nothing here evaluates `soft1`: both programs apply the same function to the same logit, so its value is
  never needed, and no finiteness of the inputs is used anywhere.

  The same context cut into tiles of 512 positions: one tile contributes `tile`, the sum over its 512 rows.
  The first weight matrix is read in two halves: rows `lo q = q` multiply the hidden state, rows
  `hi q = 1024 + q` multiply the encoder row; a sum over all 2048 rows is the sum over the two halves.
-/
import Idealize.ShloMosaic.PureOps.Ideal
import Idealize.ShloMosaic.PureOps.Ideal.Laws
import Idealize.ShloMosaic.Lib.ValueIdx

noncomputable section

open scoped BigOperators

namespace Cert.AttnCtx

open Idealize.ShloMosaic Idealize.ShloMosaic.ValueIdx

/-- The leaky rectifier: `x` where `x ≥ 0`, and the slope word's value times `x` elsewhere. -/
def leaky (x : EReal) : EReal :=
  Scalar.select (FloatOps.cmpf (F := Ideal) (φ := .f32) .oge x (Ideal.ofBits .f32 0x00000000#32)) x
    (Ideal.ofBits .f32 0x3C23D70A#32 * x)

/-- The word of −∞ denotes the bottom of the extended reals. -/
theorem neg_inf : Ideal.ofBits .f32 0xFF800000#32 = (⊥ : EReal) := by
  simp [Ideal.ofBits, Ideal.ieee]

/-- The softmax of a single logit over an axis of extent one: the shifted exponential over their one-term sum. -/
def soft1 (x : EReal) : EReal := Ideal.div (Ideal.exp (x - x)) (Ideal.exp (x - x))

/-- The logit of one position: encoder row `x`, its weight rows `W`, the projected hidden state `hp`, the hidden
    bias `b1`, the output weights `w2` and bias `b2`. -/
def score (x : Fin 1024 → EReal) (W : Fin 1024 → Fin 512 → EReal) (hp b1 w2 : Fin 512 → EReal) (b2 : EReal) : EReal :=
  (∑ j : Fin 512, leaky ((∑ q : Fin 1024, x q * W q j) + hp j + b1 j) * w2 j) + b2

/-- Row `q` of the lower half of the first weight matrix. -/
def lo (q : Fin 1024) : Fin 2048 := ⟨q.val, by omega⟩

/-- Row `q` of the upper half of the first weight matrix. -/
def hi (q : Fin 1024) : Fin 2048 := ⟨1024 + q.val, by omega⟩

/-- A sum over the 2048 rows is the sum over the lower half plus the sum over the upper half. -/
theorem sum_halves (f : Fin 2048 → EReal) : ∑ k : Fin 2048, f k = (∑ q : Fin 1024, f (lo q)) + ∑ q : Fin 1024, f (hi q) :=
  Fin.sum_univ_add (a := 1024) (b := 1024) f

/-- One tile of 512 positions held as blocks: what it adds to column `e` of the context. -/
def tile (x0 : (⟨3, ![1, 512, 1024]⟩ : Shape).Idx → EReal) (x1 : (⟨3, ![1, 1, 512]⟩ : Shape).Idx → EReal)
    (x2 : (⟨2, ![1024, 512]⟩ : Shape).Idx → EReal) (x3 : (⟨1, ![512]⟩ : Shape).Idx → EReal)
    (x4 : (⟨2, ![512, 1]⟩ : Shape).Idx → EReal) (x5 : (⟨1, ![1]⟩ : Shape).Idx → EReal) (e : Fin 1024) : EReal :=
  ∑ r : Fin 512, soft1 (score (fun q => x0 (ix3 0 r q)) (fun q j => x2 (ix2 q j)) (fun j => x1 (ix3 0 0 j))
      (fun j => x3 (ix1 j)) (fun j => x4 (ix2 j 0)) (x5 (ix1 0))) * x0 (ix3 0 r e)

/-- The projected hidden state of batch row `b`: the hidden vector against the lower half of the weights. -/
def hproj (hid : (⟨3, ![1, 32, 1024]⟩ : Shape).Idx → EReal) (W1 : (⟨2, ![2048, 512]⟩ : Shape).Idx → EReal)
    (b : Fin 32) (j : Fin 512) : EReal :=
  ∑ q : Fin 1024, hid (ix3 0 b q) * W1 (ix2 (lo q) j)

/-- The weight of position `s` of batch row `b`. -/
def weight (enc : (⟨3, ![32, 2048, 1024]⟩ : Shape).Idx → EReal) (hid : (⟨3, ![1, 32, 1024]⟩ : Shape).Idx → EReal)
    (W1 : (⟨2, ![2048, 512]⟩ : Shape).Idx → EReal) (b1 : (⟨1, ![512]⟩ : Shape).Idx → EReal)
    (W2 : (⟨2, ![512, 1]⟩ : Shape).Idx → EReal) (b2 : (⟨1, ![1]⟩ : Shape).Idx → EReal) (b : Fin 32) (s : Fin 2048) : EReal :=
  soft1 (score (fun q => enc (ix3 b s q)) (fun q j => W1 (ix2 (hi q) j)) (hproj hid W1 b)
    (fun j => b1 (ix1 j)) (fun j => W2 (ix2 j 0)) (b2 (ix1 0)))

/-- The context: entry `(b, 0, e)` is the weighted sum over the 2048 positions of the encoder's column `e`. -/
def ctx (enc : (⟨3, ![32, 2048, 1024]⟩ : Shape).Idx → EReal) (hid : (⟨3, ![1, 32, 1024]⟩ : Shape).Idx → EReal)
    (W1 : (⟨2, ![2048, 512]⟩ : Shape).Idx → EReal) (b1 : (⟨1, ![512]⟩ : Shape).Idx → EReal)
    (W2 : (⟨2, ![512, 1]⟩ : Shape).Idx → EReal) (b2 : (⟨1, ![1]⟩ : Shape).Idx → EReal) :
    (⟨3, ![32, 1, 1024]⟩ : Shape).Idx → EReal := fun i =>
  ∑ s : Fin 2048, weight enc hid W1 b1 W2 b2 (i 0) s * enc (ix3 (i 0) s (i 2))

/-- The context at an entry given by coordinates. -/
theorem ctx_apply (enc : (⟨3, ![32, 2048, 1024]⟩ : Shape).Idx → EReal) (hid : (⟨3, ![1, 32, 1024]⟩ : Shape).Idx → EReal)
    (W1 : (⟨2, ![2048, 512]⟩ : Shape).Idx → EReal) (b1 : (⟨1, ![512]⟩ : Shape).Idx → EReal)
    (W2 : (⟨2, ![512, 1]⟩ : Shape).Idx → EReal) (b2 : (⟨1, ![1]⟩ : Shape).Idx → EReal) (b : Fin 32) (u : Fin 1) (e : Fin 1024) :
    ctx enc hid W1 b1 W2 b2 (ix3 b u e) = ∑ s : Fin 2048, weight enc hid W1 b1 W2 b2 b s * enc (ix3 b s e) := rfl

end Cert.AttnCtx

end
-- ==== Proof.LibPlainDot.lean ====
/-
  A plain matrix product read at an index, on the extended reals.

  For dimension numbers that contract the left operand's second axis against the right operand's
  first, with no batch axes (an `M×K` matrix times a `K×N` matrix), entry `(p, c)` of the product is
  `Σ_{q < K} l[p, q] · r[q, c]`. The library states a product as a sum over the contraction shape's
  multi-indices; here that sum is re-indexed by the one contracted coordinate, once, for every record
  of this form and every extent.
-/
import Idealize.ShloMosaic.PureOps.Ideal.Laws
import Idealize.ShloMosaic.Lib.ValueIdx

noncomputable section

open scoped BigOperators

namespace Cert.PlainDot

open Idealize.ShloMosaic Idealize.ShloMosaic.ValueIdx

variable {M K N : Nat} (d : DotDims ⟨2, ![M, K]⟩ ⟨2, ![K, N]⟩ ⟨2, ![M, N]⟩)

/-- The dimension numbers of a plain product: contract left axis 1 with right axis 0, keep left axis 0 and
    right axis 1 in that order, no batch axes. -/
structure IsPlain : Prop where
  lc : d.lhsContracting = [1]
  rc : d.rhsContracting = [0]
  ln : d.lhsNonContracting = [0]
  rn : d.rhsNonContracting = [1]
  lb : d.lhsBatch = []
  rb : d.rhsBatch = []

variable {d}

/-- The contraction shape has one axis. -/
theorem contr_rank (h : IsPlain d) : d.contr.rank = 1 := by rw [d.rank_contr, h.lc]; rfl

/-- That axis has the shared extent `K`. -/
theorem contr_size (h : IsPlain d) : d.contr.size ⟨0, by rw [contr_rank h]; exact Nat.one_pos⟩ = K := by
  rw [d.size_contr 0 (by rw [h.lc]; exact Nat.one_pos), List.getElem_of_eq h.lc]
  rfl

/-- A coordinate of an index depends only on the axis number. -/
private theorem coord_congr {s : Shape} (j : s.Idx) (p q : Nat) (hp : p < s.rank) (hq : q < s.rank) (e : p = q) :
    (j ⟨p, hp⟩).val = (j ⟨q, hq⟩).val := by subst e; rfl

/-- The left operand is read at the result's row. -/
theorem lhs_row (h : IsPlain d) (j : (⟨2, ![M, N]⟩ : Shape).Idx) (k : d.contr.Idx) : (d.lhsIdx j k 0).val = (j 0).val := by
  unfold DotDims.lhsIdx
  rw [dif_neg (by rw [h.lb]; exact List.not_mem_nil), dif_pos (by rw [h.ln]; exact List.mem_singleton.mpr rfl)]
  simp only [Fin.val_cast]
  exact coord_congr j _ _ _ _ (by rw [h.lb, h.ln]; rfl)

/-- The right operand is read at the result's column. -/
theorem rhs_col (h : IsPlain d) (j : (⟨2, ![M, N]⟩ : Shape).Idx) (k : d.contr.Idx) : (d.rhsIdx j k 1).val = (j 1).val := by
  unfold DotDims.rhsIdx
  rw [dif_neg (by rw [h.rb]; exact List.not_mem_nil), dif_pos (by rw [h.rn]; exact List.mem_singleton.mpr rfl)]
  simp only [Fin.val_cast]
  exact coord_congr j _ _ _ _ (by rw [h.lb, h.ln, h.rn]; rfl)

/-- The library's sum over contraction multi-indices is the sum over the contracted coordinate. -/
theorem sum_contr (h : IsPlain d) (l : (⟨2, ![M, K]⟩ : Shape).Idx → EReal) (r : (⟨2, ![K, N]⟩ : Shape).Idx → EReal)
    (j : (⟨2, ![M, N]⟩ : Shape).Idx) :
    ∑ k : d.contr.Idx, l (d.lhsIdx j k) * r (d.rhsIdx j k) = ∑ q : Fin K, l (ix2 (j 0) q) * r (ix2 q (j 1)) := by
  have hr : d.contr.rank = 1 := contr_rank h
  have hs : d.contr.size ⟨0, by omega⟩ = K := contr_size h
  rw [← Equiv.sum_comp (contrEquiv1 d K hr hs).symm]
  refine Finset.sum_congr rfl fun q _ => ?_
  have hq := contrEquiv1_symm_val d K hr hs q
  have el : d.lhsIdx j ((contrEquiv1 d K hr hs).symm q) = ix2 (j 0) q := funext fun a => Fin.ext (by
    match a with
    | ⟨0, _⟩ => exact lhs_row h j _
    | ⟨1, _⟩ => exact (d.lhsIdx_val_of_single h.lc j _).trans hq)
  have er : d.rhsIdx j ((contrEquiv1 d K hr hs).symm q) = ix2 q (j 1) := funext fun a => Fin.ext (by
    match a with
    | ⟨0, _⟩ => exact (d.rhsIdx_val_of_single h.rc j _).trans hq
    | ⟨1, _⟩ => exact rhs_col h j _)
  rw [el, er]
  rfl

/-- A `tpu.matmul` into a zero accumulator, at entry `(p, c)`. -/
theorem matmul_zero_apply (h : IsPlain d) (prec : Option ContractPrecision) {φ₁ φ₂ : FTy}
    (l : FVec Ideal ⟨2, ![M, K]⟩ φ₁) (r : FVec Ideal ⟨2, ![K, N]⟩ φ₂) (p : Fin M) (c : Fin N) :
    matmul d prec l r (constant ⟨2, ![M, N]⟩ .f32 0x00000000#32) (ix2 p c) = ∑ q : Fin K, l (ix2 p q) * r (ix2 q c) :=
  (Ideal.matmul_constant_zero_apply d prec l r (ix2 p c)).trans (sum_contr h l r (ix2 p c))

/-- The host's `dot_general`, at entry `(p, c)`. -/
theorem dotGeneral_apply (h : IsPlain d) (prec : Option ContractPrecision) {φ₁ φ₂ : FTy}
    (l : FVec Ideal ⟨2, ![M, K]⟩ φ₁) (r : FVec Ideal ⟨2, ![K, N]⟩ φ₂) (p : Fin M) (c : Fin N) :
    Host.dotGeneral d prec l r (ix2 p c) = ∑ q : Fin K, l (ix2 p q) * r (ix2 q c) :=
  (Ideal.dotGeneral_apply d prec .single l r (ix2 p c)).trans (sum_contr h l r (ix2 p c))

end Cert.PlainDot

end
-- ==== Proof.LibColumn.lean ====
/-
  A vector as a column. A length-`a` vector reshaped to `[a, 1]` reads, at `(i, 0)`, the vector at `i`; and an
  `[a, 1]` column broadcast across `b` columns reads, at `(p, c)`, the column at `(p, 0)`. (The companions for
  a row `[1, a]` are the library's.)
-/
import Idealize.ShloMosaic.Lib.ValueLayout
import Idealize.ShloMosaic.Lib.Pipeline.Value

noncomputable section

namespace Cert.Column

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Column

end
-- ==== Proof.LibColumnSum.lean ====
/-
  A sum down the rows of a matrix, read at one column.

  An [a, b] array of extended reals reduced by addition along axis 0 (its rows), from a zero initial value, holds at
  column l the finite sum over the a rows k of the entry (k, l). Stated with the operation's own proof arguments as
  variables, so that a printed reduction meets it in term mode whatever proofs it carries. Depends on no program.
-/
import Idealize.ShloMosaic.Lib.ValueIdx
import Idealize.ShloMosaic.PureOps.Ideal.Laws

noncomputable section

namespace Cert.Lib

open Idealize.ShloMosaic Idealize.ShloMosaic.ValueIdx

/-- The sum of column `l` of an [a, b] array over its `a` rows, from a zero initial value. -/
theorem column_sum {a b : ℕ} (v : FVec Ideal ⟨2, ![a, b]⟩ .f32) (h : (⟨2, ![a, b]⟩ : Shape).Reduces [0] ⟨1, ![b]⟩)
    (hφ : FKind.Formats .f32) (hacc : (0x00000000#32 : BitVec (FTy.f32).bits) = FKind.add.neutral .f32 hφ) (l : Fin b) :
    multiReduction .add [0] ⟨1, ![b]⟩ v 0x00000000#32 h hφ hacc (ix1 l) = ∑ k : Fin a, v (ix2 k l) :=
  (Ideal.multiReduction_add_single v 0x00000000#32 h hφ hacc (ix1 l)).trans
    (Finset.sum_congr rfl fun k _ => congrArg v (funext fun c => Fin.ext (by
      match c with
      | ⟨0, _⟩ => rfl
      | ⟨1, _⟩ => rfl)))

end Cert.Lib

end
-- ==== Proof.LibAxisFold.lean ====
/-
  The maximum down a column, the maximum along a row and the sum along a row of a matrix, each read at one
  index.

  An [a, b] array of extended reals reduced by `max` along axis 0 (down its rows), from the value a starting
  word denotes, holds at column l the fold of `max` from that value over the entries (k, l), k < a; reduced
  along axis 1 it holds at row p the fold over the entries (p, k), k < b; and reduced by addition along axis 1
  from a zero starting value it holds at row p the finite sum of the entries (p, k). (The sum down a column is
  the companion file's.) Stated with the operation's own proof arguments as variables, so that a printed
  reduction meets each lemma in term mode whatever proofs it carries. Depends on no program.
-/
import Idealize.ShloMosaic.Lib.ValueIdx
import Idealize.ShloMosaic.PureOps.Ideal.Laws

noncomputable section

namespace Cert.AxisFold

open Idealize.ShloMosaic Idealize.ShloMosaic.ValueIdx

/-- The maximum of column `l` of an [a, b] array over its `a` rows, folded from the value of the word `acc`. -/
theorem column_max {a b : ℕ} (v : FVec Ideal ⟨2, ![a, b]⟩ .f32) (acc : BitVec (FTy.f32).bits)
    (h : (⟨2, ![a, b]⟩ : Shape).Reduces [0] ⟨1, ![b]⟩)
    (hφ : FKind.Formats .f32) (hacc : acc = FKind.maximumf.neutral .f32 hφ) (l : Fin b) :
    multiReduction .maximumf [0] ⟨1, ![b]⟩ v acc h hφ hacc (ix1 l)
      = (Finset.univ : Finset (Fin a)).fold max (Ideal.ofBits .f32 acc) fun k => v (ix2 k l) :=
  (Ideal.multiReduction_maximumf_single v acc h hφ hacc (ix1 l)).trans
    (congrArg (fun f => Finset.fold max (Ideal.ofBits .f32 acc) f (Finset.univ : Finset (Fin a)))
      (funext fun k => congrArg v (funext fun c => Fin.ext (by
        match c with
        | ⟨0, _⟩ => rfl
        | ⟨1, _⟩ => rfl))))

/-- The maximum of row `p` of an [a, b] array over its `b` columns, folded from the value of the word `acc`. -/
theorem row_max {a b : ℕ} (v : FVec Ideal ⟨2, ![a, b]⟩ .f32) (acc : BitVec (FTy.f32).bits)
    (h : (⟨2, ![a, b]⟩ : Shape).Reduces [1] ⟨1, ![a]⟩)
    (hφ : FKind.Formats .f32) (hacc : acc = FKind.maximumf.neutral .f32 hφ) (p : Fin a) :
    multiReduction .maximumf [1] ⟨1, ![a]⟩ v acc h hφ hacc (ix1 p)
      = (Finset.univ : Finset (Fin b)).fold max (Ideal.ofBits .f32 acc) fun k => v (ix2 p k) :=
  (Ideal.multiReduction_maximumf_single v acc h hφ hacc (ix1 p)).trans
    (congrArg (fun f => Finset.fold max (Ideal.ofBits .f32 acc) f (Finset.univ : Finset (Fin b)))
      (funext fun k => congrArg v (funext fun c => Fin.ext (by
        match c with
        | ⟨0, _⟩ => rfl
        | ⟨1, _⟩ => rfl))))

/-- The sum of row `p` of an [a, b] array over its `b` columns, from a zero initial value. -/
theorem row_sum {a b : ℕ} (v : FVec Ideal ⟨2, ![a, b]⟩ .f32) (h : (⟨2, ![a, b]⟩ : Shape).Reduces [1] ⟨1, ![a]⟩)
    (hφ : FKind.Formats .f32) (hacc : (0x00000000#32 : BitVec (FTy.f32).bits) = FKind.add.neutral .f32 hφ) (p : Fin a) :
    multiReduction .add [1] ⟨1, ![a]⟩ v 0x00000000#32 h hφ hacc (ix1 p) = ∑ k : Fin b, v (ix2 p k) :=
  (Ideal.multiReduction_add_single v 0x00000000#32 h hφ hacc (ix1 p)).trans
    (Finset.sum_congr rfl fun k _ => congrArg v (funext fun c => Fin.ext (by
      match c with
      | ⟨0, _⟩ => rfl
      | ⟨1, _⟩ => rfl)))

end Cert.AxisFold

end
-- ==== Proof.KernelTile.lean ====
/-
  One grid point of the kernel, read entry by entry.

  At a point the body holds a tile of 512 encoder rows `x0` (as a [1, 512, 1024] block), the projected hidden
  state of the tile's batch row `x1`, the upper half of the first weight matrix `x2`, the hidden bias `x3`, the
  output weights `x4` and the output bias `x5`. Row `r` of the tile gets the weight `soft1 (score …)` of the
  specification: a matrix product into a zero accumulator is the plain sum over the contracted coordinate, a
  change of float format is the identity, the two row biases are read back through their broadcasts, and the
  maximum and the sum along the weight column's one-entry axis are that entry (the maximum folded from −∞).
  The tile then adds, to entry `e` of what the output block held, the sum over its 512 rows of
  weight × encoder entry: `tile` of the specification.
-/
import proofs.«124127_j40510131535961_1_alg».proof.Proof.Gen.KernelIdeal.Skeleton
import proofs.«124127_j40510131535961_1_alg».proof.Proof.Spec
import proofs.«124127_j40510131535961_1_alg».proof.Proof.LibPlainDot
import proofs.«124127_j40510131535961_1_alg».proof.Proof.LibColumn
import proofs.«124127_j40510131535961_1_alg».proof.Proof.LibColumnSum
import proofs.«124127_j40510131535961_1_alg».proof.Proof.LibAxisFold
import Idealize.ShloMosaic.Lib.Pipeline.Value
import Idealize.ShloMosaic.Lib.ValueLayout
import Idealize.ShloMosaic.Lib.ValueIdx
import Idealize.ShloMosaic.PureOps.Ideal.Laws

noncomputable section

open scoped BigOperators

namespace Cert.AttnCtx.Tile

open Cert.KernelIdeal Cert.KernelIdeal.Gen Cert.AttnCtx Idealize.ShloMosaic Idealize.ShloMosaic.ValueIdx

/-- Both products of the body contract the left operand's columns against the right operand's rows. -/
theorem plain_hidden : Cert.PlainDot.IsPlain dot_S512x1024_S1024x512_S512x512_1_0_0_1_n_n := ⟨rfl, rfl, rfl, rfl, rfl, rfl⟩
theorem plain_logit : Cert.PlainDot.IsPlain dot_S512x512_S512x1_S512x1_1_0_0_1_n_n := ⟨rfl, rfl, rfl, rfl, rfl, rfl⟩

/-! ## The body's stages, each as a vector of its operands -/

/-- The hidden pre-activations of the tile: rows against the upper weight half, plus the two row biases. -/
def preV (x0 : Vec Ideal S1x512x1024 .f32) (x2 : Vec Ideal S1024x512 .bf16) (x1 : Vec Ideal S1x1x512 .f32)
    (x3 : Vec Ideal S512 .f32) : FVec Ideal S512x512 .f32 :=
  addf (addf (matmul dot_S512x1024_S1024x512_S512x512_1_0_0_1_n_n none (truncf .bf16 (k0_pay3 x0) bitsLt_bf16_f32)
      (shapeCast S1024x512 x2 shapeCasts_S1024x512_S1024x512 : FVec Ideal S1024x512 .bf16) (constant S512x512 .f32 0x00000000#32))
    (broadcastTo S512x512 (shapeCast S1x512 x1 shapeCasts_S1x1x512_S1x512) broadcasts_S1x512_S512x512))
    (broadcastTo S512x512 (shapeCast S1x512 x3 shapeCasts_S512_S1x512) broadcasts_S1x512_S512x512)

/-- The leaky rectifier over the tile. -/
def leakyV (v : FVec Ideal S512x512 .f32) : FVec Ideal S512x512 .f32 :=
  select (cmpf .oge v (broadcast S512x512 (Scalar.ofBits .f32 0x00000000#32))) v
    (mulf (broadcast S512x512 (Scalar.ofBits .f32 0x3C23D70A#32)) v)

/-- The logits of the tile's rows, as a column. -/
def scoreV (v : FVec Ideal S512x512 .f32) (x4 : Vec Ideal S512x1 .bf16) (x5 : Vec Ideal S1 .f32) : FVec Ideal S512x1 .f32 :=
  addf (matmul dot_S512x512_S512x1_S512x1_1_0_0_1_n_n none (truncf .bf16 v bitsLt_bf16_f32)
      (shapeCast S512x1 x4 shapeCasts_S512x1_S512x1 : FVec Ideal S512x1 .bf16) (constant S512x1 .f32 0x00000000#32))
    (broadcastTo S512x1 (shapeCast S1x1 x5 shapeCasts_S1_S1x1) broadcasts_S1x1_S512x1)

/-- The shifted exponentials of a column of logits: each logit less the maximum along its one-entry axis. -/
def expV (v : FVec Ideal S512x1 .f32) : FVec Ideal S512x1 .f32 :=
  exp (subf v (shapeCast S512x1 (multiReduction .maximumf [1] S512 v 0xFF800000#32 reduces_S512x1_S512 (.inl rfl) rfl)
    shapeCasts_S512_S512x1))

/-- The softmax along the one-entry axis. -/
def softV (v : FVec Ideal S512x1 .f32) : FVec Ideal S512x1 .f32 :=
  divf (expV v) (shapeCast S512x1 (multiReduction .add [1] S512 (expV v) 0x00000000#32 reduces_S512x1_S512 (.inl rfl) rfl)
    shapeCasts_S512_S512x1)

/-- The weight column of the body is these stages composed. -/
theorem pay4_eq (x0 : Vec Ideal S1x512x1024 .f32) (x2 : Vec Ideal S1024x512 .bf16) (x1 : Vec Ideal S1x1x512 .f32)
    (x3 : Vec Ideal S512 .f32) (x4 : Vec Ideal S512x1 .bf16) (x5 : Vec Ideal S1 .f32) :
    k0_pay4 (F := Ideal) x0 x2 x1 x3 x4 x5 = softV (scoreV (leakyV (preV x0 x2 x1 x3)) x4 x5) := rfl

/-! ## Each stage at an entry -/

/-- The tile with its unit axis dropped. -/
theorem pay3_apply (x0 : Vec Ideal S1x512x1024 .f32) (r : Fin 512) (q : Fin 1024) :
    k0_pay3 (F := Ideal) x0 (ix2 r q) = x0 (ix3 0 r q) :=
  shapeCast_1ab_ab_apply x0 _ r q

theorem preV_apply (x0 : Vec Ideal S1x512x1024 .f32) (x2 : Vec Ideal S1024x512 .bf16) (x1 : Vec Ideal S1x1x512 .f32)
    (x3 : Vec Ideal S512 .f32) (r j : Fin 512) :
    preV x0 x2 x1 x3 (ix2 r j) = (∑ q : Fin 1024, x0 (ix3 0 r q) * x2 (ix2 q j)) + x1 (ix3 0 0 j) + x3 (ix1 j) := by
  unfold preV
  refine congrArg₂ (fun a b : EReal => a + b) (congrArg₂ (fun a b : EReal => a + b) ?_ ?_) ?_
  · refine (Cert.PlainDot.matmul_zero_apply plain_hidden none _ _ r j).trans (Finset.sum_congr rfl fun q _ => ?_)
    exact congrArg₂ (· * ·) (pay3_apply x0 r q) (congrFun (shapeCast_self x2 _) (ix2 q j))
  · exact (broadcastTo_1b_ab_apply _ _ r j).trans (shapeCast_1ab_ab_apply x1 _ 0 j)
  · exact (broadcastTo_1b_ab_apply _ _ r j).trans (shapeCast_a_1a_apply x3 _ 0 j)

theorem leakyV_apply (v : FVec Ideal S512x512 .f32) (r j : Fin 512) : leakyV v (ix2 r j) = leaky (v (ix2 r j)) := rfl

theorem scoreV_apply (v : FVec Ideal S512x512 .f32) (x4 : Vec Ideal S512x1 .bf16) (x5 : Vec Ideal S1 .f32) (r : Fin 512) :
    scoreV v x4 x5 (ix2 r (0 : Fin 1)) = (∑ j : Fin 512, v (ix2 r j) * x4 (ix2 j (0 : Fin 1))) + x5 (ix1 (0 : Fin 1)) := by
  unfold scoreV
  refine congrArg₂ (fun a b : EReal => a + b) ?_ ?_
  · refine (Cert.PlainDot.matmul_zero_apply plain_logit none _ _ r 0).trans (Finset.sum_congr rfl fun j _ => ?_)
    exact congrArg (v (ix2 r j) * ·) (congrFun (shapeCast_self x4 _) (ix2 j 0))
  · exact (broadcastTo_1b_ab_apply _ _ r 0).trans (shapeCast_a_1a_apply x5 _ 0 0)

/-- The shifted exponential of row `r`: the maximum over the one entry, folded from −∞, is the entry. -/
theorem expV_apply (v : FVec Ideal S512x1 .f32) (r : Fin 512) (u : Fin 1) :
    expV v (ix2 r u) = Ideal.exp (v (ix2 r (0 : Fin 1)) - v (ix2 r (0 : Fin 1))) := by
  obtain rfl : u = 0 := Subsingleton.elim _ _
  unfold expV
  refine congrArg (fun z : EReal => Ideal.exp (v (ix2 r 0) - z)) ?_
  refine (Cert.Column.shapeCast_a_a1_apply _ _ r 0).trans ((Cert.AxisFold.row_max v _ _ _ _ r).trans ?_)
  rw [neg_inf, Finset.univ_unique, Finset.fold_singleton]
  exact max_eq_left bot_le

theorem softV_apply (v : FVec Ideal S512x1 .f32) (r : Fin 512) : softV v (ix2 r (0 : Fin 1)) = soft1 (v (ix2 r (0 : Fin 1))) := by
  unfold softV soft1
  refine congrArg₂ Ideal.div (expV_apply v r 0) ?_
  refine (Cert.Column.shapeCast_a_a1_apply _ _ r 0).trans ((Cert.AxisFold.row_sum (expV v) _ _ _ r).trans ?_)
  rw [Fin.sum_univ_one]
  exact expV_apply v r 0

/-- The weight of row `r` of the tile is the specification's weight of that row. -/
theorem pay4_apply (x0 : Vec Ideal S1x512x1024 .f32) (x2 : Vec Ideal S1024x512 .bf16) (x1 : Vec Ideal S1x1x512 .f32)
    (x3 : Vec Ideal S512 .f32) (x4 : Vec Ideal S512x1 .bf16) (x5 : Vec Ideal S1 .f32) (r : Fin 512) :
    k0_pay4 (F := Ideal) x0 x2 x1 x3 x4 x5 (ix2 r (0 : Fin 1))
      = soft1 (score (fun q => x0 (ix3 0 r q)) (fun q j => x2 (ix2 q j)) (fun j => x1 (ix3 0 0 j))
          (fun j => x3 (ix1 j)) (fun j => x4 (ix2 j 0)) (x5 (ix1 0))) := by
  rw [pay4_eq, softV_apply, scoreV_apply]
  refine congrArg soft1 (congrArg (· + x5 (ix1 0)) (Finset.sum_congr rfl fun j _ => ?_))
  rw [leakyV_apply, preV_apply]

/-! ## What the point stores -/

/-- The reset stores the zero block. -/
theorem pay2_apply (e : Fin 1024) : k0_pay2 (F := Ideal) (ix3 0 0 e) = 0 := by
  unfold k0_pay2
  refine (shapeCast_ab_1ab_apply _ _ 0 0 e).trans ?_
  exact Ideal.ofBits_zero_f32

/-- The accumulation: entry `e` of what the block held plus the tile's weighted column sum. -/
theorem pay1_apply (v4 : FVec Ideal S512x1024 .f32) (v36 : FVec Ideal S512x1 .f32) (acc : Vec Ideal S1x1x1024 .f32) (e : Fin 1024) :
    k0_pay1 (F := Ideal) v4 v36 acc (ix3 0 0 e) = acc (ix3 0 0 e) + ∑ r : Fin 512, v36 (ix2 r (0 : Fin 1)) * v4 (ix2 r e) := by
  unfold k0_pay1
  refine (shapeCast_ab_1ab_apply _ _ 0 0 e).trans (congrArg₂ (fun a b : EReal => a + b) ?_ ?_)
  · exact shapeCast_1ab_ab_apply acc _ 0 e
  · refine (shapeCast_a_1a_apply _ _ 0 e).trans ((Cert.Lib.column_sum _ _ _ _ e).trans (Finset.sum_congr rfl fun r _ => ?_))
    exact congrArg (· * v4 (ix2 r e)) (Cert.Column.broadcastTo_a1_ab_apply v36 _ r e)

/-- So a point leaves, at entry `e`, what the block held plus the specification's `tile`. -/
theorem step_apply (x0 : Vec Ideal S1x512x1024 .f32) (x2 : Vec Ideal S1024x512 .bf16) (x1 : Vec Ideal S1x1x512 .f32)
    (x3 : Vec Ideal S512 .f32) (x4 : Vec Ideal S512x1 .bf16) (x5 : Vec Ideal S1 .f32) (acc : Vec Ideal S1x1x1024 .f32) (e : Fin 1024) :
    k0_pay1 (F := Ideal) (k0_pay3 x0) (k0_pay4 x0 x2 x1 x3 x4 x5) acc (ix3 0 0 e) = acc (ix3 0 0 e) + tile x0 x1 x2 x3 x4 x5 e := by
  rw [pay1_apply]
  refine congrArg (acc (ix3 0 0 e) + ·) (Finset.sum_congr rfl fun r _ => ?_)
  rw [pay4_apply, pay3_apply]

end Cert.AttnCtx.Tile

end
-- ==== Proof.KernelBlocks.lean ====
/-
  The kernel's input blocks at a grid point, as pieces of the argument arrays.

  Grid point `t` (of 128, batch-major) works on batch row `t / 4` and on tile `t % 4` of its 2048 positions.
  Its encoder block is rows `512·(t % 4) … 512·(t % 4) + 511` of batch row `t / 4`; its hidden-state block is
  row `t / 4` of the projected hidden state, which the host computed before the launch as the hidden vectors
  against the lower half of the first weight matrix; its weight block is the upper half of that matrix (the
  change of float format is the identity); the two biases and the output weights are read whole.
-/
import proofs.«124127_j40510131535961_1_alg».proof.Proof.Gen.KernelIdeal.Value
import proofs.«124127_j40510131535961_1_alg».proof.Proof.Spec
import proofs.«124127_j40510131535961_1_alg».proof.Proof.LibPlainDot
import Idealize.ShloMosaic.Lib.StableHlo.Run
import Idealize.ShloMosaic.Lib.Tactic
import Idealize.ShloMosaic.Lib.Pipeline.Value
import Idealize.ShloMosaic.Lib.ValueLayout
import Idealize.ShloMosaic.Lib.ValueIdx
import Idealize.ShloMosaic.PureOps.Ideal.Laws

noncomputable section

open scoped BigOperators

namespace Cert.AttnCtx.Blocks

open Cert.KernelIdeal Cert.KernelIdeal.Gen Cert.AttnCtx Idealize.ShloMosaic Idealize.ShloMosaic.TcCoe Idealize.SL.Sem
  Idealize.ShloMosaic.ValueIdx

variable (m : (ℓ : Loc nD τ sig) → Buf (Elt Ideal) ℓ)

/-! ## The index maps over the grid -/

theorem idx0 : ∀ t : Fin cfg0.N, win0_0.index t (0 : Fin 3) = t.val / 4 ∧ win0_0.index t (1 : Fin 3) = t.val % 4
    ∧ win0_0.index t (2 : Fin 3) = 0 := (by decide +kernel : ∀ t : Fin grid0.N, _)
theorem idx1 : ∀ t : Fin cfg0.N, win0_1.index t (0 : Fin 3) = t.val / 4 ∧ win0_1.index t (1 : Fin 3) = 0
    ∧ win0_1.index t (2 : Fin 3) = 0 := (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 1) = 0 := (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 1) = 0 := (by decide +kernel : ∀ t : Fin grid0.N, _)

/-! ## The arrays the host wrote before the launch -/

/-- The projected hidden state, one row per batch row with a unit axis in between. -/
theorem V_hproj (c : Dev nD) : (V m c main_v4 : S32x1x512.Idx → EReal)
    = shapeCast S32x1x512 (Host.dotGeneral (F := Ideal) dot_S32x1024_S1024x512_S32x512_1_0_0_1_n_n none
        (shapeCast S32x1024 (m ((c : Thread nD τ).loc main_arg1)) shapeCasts_S1x32x1024_S32x1024 : FVec Ideal S32x1024 .f32)
        (extractStridedSlice S1024x512 ![0, 0] (m ((c : Thread nD τ).loc main_arg2)) slices_S2048x512_S1024x512_0_0 : FVec Ideal S1024x512 .f32))
      shapeCasts_S32x512_S32x1x512 := by
  dsimp only [V, hostOps0]
  after_results
  rfl

/-- The upper half of the first weight matrix. -/
theorem V_upper (c : Dev nD) : (V m c main_v5 : S1024x512.Idx → EReal)
    = (truncf .bf16 (extractStridedSlice S1024x512 ![1024, 0] (m ((c : Thread nD τ).loc main_arg2)) slices_S2048x512_S1024x512_1024_0 : FVec Ideal S1024x512 .f32) bitsLt_bf16_f32 : FVec Ideal S1024x512 .bf16) := by
  dsimp only [V, hostOps0]
  after_results

/-- The output weights. -/
theorem V_w2 (c : Dev nD) : (V m c main_v6 : S512x1.Idx → EReal)
    = (truncf .bf16 (m ((c : Thread nD τ).loc main_arg4) : FVec Ideal S512x1 .f32) bitsLt_bf16_f32 : FVec Ideal S512x1 .bf16) := by
  dsimp only [V, hostOps0]
  after_results

theorem plain_hproj : Cert.PlainDot.IsPlain dot_S32x1024_S1024x512_S32x512_1_0_0_1_n_n := ⟨rfl, rfl, rfl, rfl, rfl, rfl⟩

/-- Row `b` of the projected hidden state is the specification's projection. -/
theorem V_hproj_apply (c : Dev nD) (b : Fin 32) (j : Fin 512) :
    V m c main_v4 (ix3 b (0 : Fin 1) j)
      = hproj (m ((c : Thread nD τ).loc main_arg1)) (m ((c : Thread nD τ).loc main_arg2)) b j := by
  rw [V_hproj]
  refine (shapeCast_apply _ shapeCasts_S32x512_S32x1x512 (ix3 b (0 : Fin 1) j) (ix2 b j) (by
    rw [Shape.rowMajor_val_two, Shape.rowMajor_val_three]
    show b.val * 512 + j.val = (b.val * 1 + 0) * 512 + j.val
    omega)).trans ?_
  refine (Cert.PlainDot.dotGeneral_apply plain_hproj none _ _ b j).trans (Finset.sum_congr rfl fun q _ => ?_)
  refine congrArg₂ (fun a b : EReal => a * b) (shapeCast_1ab_ab_apply _ _ b q) ?_
  exact extractStridedSlice_apply _ _ slices_S2048x512_S1024x512_0_0 (ix2 q j) (ix2 (lo q) j) (fun a => by
    match a with
    | ⟨0, _⟩ => show q.val = 0 + q.val; omega
    | ⟨1, _⟩ => show j.val = 0 + j.val; omega)

/-- Row `q` of the kernel's weight array is row `1024 + q` of the first weight matrix. -/
theorem V_upper_apply (c : Dev nD) (q : Fin 1024) (j : Fin 512) :
    V m c main_v5 (ix2 q j) = m ((c : Thread nD τ).loc main_arg2) (ix2 (hi q) j) := by
  rw [V_upper]
  exact extractStridedSlice_apply _ _ slices_S2048x512_S1024x512_1024_0 (ix2 q j) (ix2 (hi q) j) (fun a => by
    match a with
    | ⟨0, _⟩ => show 1024 + q.val = 1024 + q.val; rfl
    | ⟨1, _⟩ => show j.val = 0 + j.val; omega)

theorem V_w2_apply (c : Dev nD) (i : S512x1.Idx) : V m c main_v6 i = m ((c : Thread nD τ).loc main_arg4) i := by
  rw [V_w2]
  rfl

/-! ## The blocks at a point -/

/-- The encoder block: row `r` of the tile is position `s` of batch row `b`. -/
theorem blk0_apply (c : Dev nD) (t : Fin cfg0.N) (r : Fin 512) (q : Fin 1024) (b : Fin 32) (s : Fin 2048)
    (hb : b.val = t.val / 4) (hs : s.val = t.val % 4 * 512 + r.val) :
    iblk m c 0 t (ix3 (0 : Fin 1) r q) = m ((c : Thread nD τ).loc main_arg0) (ix3 b s q) := by
  obtain ⟨e0, e1, e2⟩ := idx0 t
  unfold iblk
  rw [View.read_apply]
  show V m c main_arg0 _ = _
  refine (congrArg (V m c main_arg0) (funext fun a => Fin.ext ?_)).trans (congrFun (V_main_arg0 m c) (ix3 b s q))
  match a with
  | ⟨0, _⟩ => show win0_0.index t (0 : Fin 3) * 1 + 1 * 0 = b.val; omega
  | ⟨1, _⟩ => show win0_0.index t (1 : Fin 3) * 512 + 1 * r.val = s.val; omega
  | ⟨2, _⟩ => show win0_0.index t (2 : Fin 3) * 1024 + 1 * q.val = q.val; omega

/-- The hidden-state block: batch row `b` of the projection. -/
theorem blk1_apply (c : Dev nD) (t : Fin cfg0.N) (j : Fin 512) (b : Fin 32) (hb : b.val = t.val / 4) :
    iblk m c 1 t (ix3 (0 : Fin 1) (0 : Fin 1) j)
      = hproj (m ((c : Thread nD τ).loc main_arg1)) (m ((c : Thread nD τ).loc main_arg2)) b j := by
  obtain ⟨e0, e1, e2⟩ := idx1 t
  unfold iblk
  rw [View.read_apply]
  show V m c main_v4 _ = _
  refine (congrArg (V m c main_v4) (funext fun a => Fin.ext ?_)).trans (V_hproj_apply m c b j)
  match a with
  | ⟨0, _⟩ => show win0_1.index t (0 : Fin 3) * 1 + 1 * 0 = b.val; omega
  | ⟨1, _⟩ => show win0_1.index t (1 : Fin 3) * 1 + 1 * 0 = 0; omega
  | ⟨2, _⟩ => show win0_1.index t (2 : Fin 3) * 512 + 1 * j.val = j.val; omega

/-- The weight block: the whole upper half. -/
theorem blk2_apply (c : Dev nD) (t : Fin cfg0.N) (q : Fin 1024) (j : Fin 512) :
    iblk m c 2 t (ix2 q j) = m ((c : Thread nD τ).loc main_arg2) (ix2 (hi q) j) := by
  obtain ⟨e0, e1⟩ := idx2 t
  unfold iblk
  rw [View.read_apply]
  show V m c main_v5 _ = _
  refine (congrArg (V m c main_v5) (funext fun a => Fin.ext ?_)).trans (V_upper_apply m c q j)
  match a with
  | ⟨0, _⟩ => show win0_2.index t (0 : Fin 2) * 1024 + 1 * q.val = q.val; omega
  | ⟨1, _⟩ => show win0_2.index t (1 : Fin 2) * 512 + 1 * j.val = j.val; omega

/-- The hidden bias, whole. -/
theorem blk3_apply (c : Dev nD) (t : Fin cfg0.N) (j : Fin 512) :
    iblk m c 3 t (ix1 j) = m ((c : Thread nD τ).loc main_arg3) (ix1 j) := by
  have e0 := idx3 t
  unfold iblk
  rw [View.read_apply]
  show V m c main_arg3 _ = _
  refine (congrArg (V m c main_arg3) (funext fun a => Fin.ext ?_)).trans (congrFun (V_main_arg3 m c) (ix1 j))
  match a with
  | ⟨0, _⟩ => show win0_3.index t (0 : Fin 1) * 512 + 1 * j.val = j.val; omega

/-- The output weights, whole. -/
theorem blk4_apply (c : Dev nD) (t : Fin cfg0.N) (j : Fin 512) :
    iblk m c 4 t (ix2 j (0 : Fin 1)) = m ((c : Thread nD τ).loc main_arg4) (ix2 j (0 : Fin 1)) := by
  obtain ⟨e0, e1⟩ := idx4 t
  unfold iblk
  rw [View.read_apply]
  show V m c main_v6 _ = _
  refine (congrArg (V m c main_v6) (funext fun a => Fin.ext ?_)).trans (V_w2_apply m c (ix2 j 0))
  match a with
  | ⟨0, _⟩ => show win0_4.index t (0 : Fin 2) * 512 + 1 * j.val = j.val; omega
  | ⟨1, _⟩ => show win0_4.index t (1 : Fin 2) * 1 + 1 * 0 = 0; omega

/-- The output bias, whole. -/
theorem blk5_apply (c : Dev nD) (t : Fin cfg0.N) :
    iblk m c 5 t (ix1 (0 : Fin 1)) = m ((c : Thread nD τ).loc main_arg5) (ix1 (0 : Fin 1)) := by
  have e0 := idx5 t
  unfold iblk
  rw [View.read_apply]
  show V m c main_arg5 _ = _
  refine (congrArg (V m c main_arg5) (funext fun a => Fin.ext ?_)).trans (congrFun (V_main_arg5 m c) (ix1 0))
  match a with
  | ⟨0, _⟩ => show win0_5.index t (0 : Fin 1) * 1 + 1 * 0 = 0; omega

end Cert.AttnCtx.Blocks

end
-- ==== Proof.LibBlockSum.lean ====
import Mathlib.Algebra.BigOperators.Fin
import Mathlib.Algebra.BigOperators.Intervals

/-!
# Summing a long sequence block by block

A sum over `T * B` consecutive indices can be taken as `T` partial sums of `B`
consecutive terms each, added up one after the other.  In an additive commutative
monoid the result is the same as the single sum over all `T * B` indices:

* `Cert.BlockSum.sum_blocks`: the general statement, for any number `T` of blocks of any
  length `B`;
* `Cert.BlockSum.sum_20x5000`: twenty blocks of five thousand terms, started from zero,
  with the block count written `19 + 1` and the position written `5000 * s + r`, equal
  to the sum over all one hundred thousand indices.

Only commutativity and associativity of the addition are used.
-/

namespace Cert.BlockSum

/-- `T` partial sums of `B` consecutive terms add up to the sum over all `T * B` terms. -/
theorem sum_blocks {β : Type*} [AddCommMonoid β] (T B : ℕ) (f : ℕ → β) :
    ∑ s ∈ Finset.range T, ∑ r : Fin B, f (s * B + r.val) = ∑ n : Fin (T * B), f n.val := by
  rw [Fin.sum_univ_eq_sum_range (fun n => f n) (T * B)]
  induction T with
  | zero => simp
  | succ T ih =>
    -- the last block is the tail of the range of length `T * B + B`
    rw [Finset.sum_range_succ, ih, Nat.succ_mul, Finset.sum_range_add,
      Fin.sum_univ_eq_sum_range (fun r => f (T * B + r)) B]

/-- Twenty blocks of five thousand terms, accumulated from zero, give the sum of all
one hundred thousand terms. -/
theorem sum_20x5000 {β : Type*} [AddCommMonoid β] (g : Fin 100000 → β) (f : ℕ → β)
    (hf : ∀ n : Fin 100000, f n.val = g n) :
    (0 : β) + ∑ s ∈ Finset.range (19 + 1), ∑ r : Fin 5000, f (5000 * s + r.val)
      = ∑ n : Fin 100000, g n := by
  rw [zero_add]
  calc ∑ s ∈ Finset.range (19 + 1), ∑ r : Fin 5000, f (5000 * s + r.val)
      = ∑ s ∈ Finset.range 20, ∑ r : Fin 5000, f (s * 5000 + r.val) := by
        refine Finset.sum_congr rfl fun s _ => Finset.sum_congr rfl fun r _ => ?_
        rw [Nat.mul_comm]
    _ = ∑ n : Fin (20 * 5000), f n.val := sum_blocks 20 5000 f
    _ = ∑ n : Fin 100000, g n := Finset.sum_congr rfl fun n _ => hf n

end Cert.BlockSum
-- ==== Proof.TileSum.lean ====
/-
  Four tiles of 512 positions make the 2048 positions of a batch row.

  An accumulator that starts from zero and receives, tile after tile, the sum of a term over the tile's 512
  positions ends at the sum of the term over all 2048 positions: the position of row `r` of tile `s` is
  `512·s + r`. Only the commutative-monoid laws of the addition are used, so this holds on the extended reals as
  it stands.
-/
import proofs.«124127_j40510131535961_1_alg».proof.Proof.LibBlockSum
import proofs.«124127_j40510131535961_1_alg».proof.Proof.Spec

open scoped BigOperators

namespace Cert.AttnCtx

open Idealize.ShloMosaic Idealize.ShloMosaic.ValueIdx

/-- The block-by-block sum with the total count named: `T` blocks of `B` terms are the `N = T·B` terms. -/
theorem sum_blocks_to {β : Type*} [AddCommMonoid β] (T B N : ℕ) (hN : N = T * B) (f : ℕ → β) :
    ∑ s ∈ Finset.range T, ∑ r : Fin B, f (s * B + r.val) = ∑ n : Fin N, f n.val := by
  subst hN
  exact Cert.BlockSum.sum_blocks T B f

/-- Zero plus four consecutive tile sums is the sum over the whole row of positions. `M` gives tile `b + s` its
    sum; `g` is the summand by position. -/
theorem sum_four_tiles (g : Fin 2048 → EReal) (M : ℕ → EReal) (b : ℕ)
    (hM : ∀ s, s < 4 → M (b + s) = ∑ r : Fin 512, (if h : s * 512 + r.val < 2048 then g ⟨s * 512 + r.val, h⟩ else 0)) :
    (0 : EReal) + ∑ s ∈ Finset.range (3 + 1), M (b + s) = ∑ n : Fin 2048, g n := by
  have h1 : ∑ s ∈ Finset.range (3 + 1), M (b + s)
      = ∑ s ∈ Finset.range 4, ∑ r : Fin 512, (fun n : ℕ => if h : n < 2048 then g ⟨n, h⟩ else 0) (s * 512 + r.val) :=
    Finset.sum_congr rfl fun s hs => hM s (Finset.mem_range.mp hs)
  have h2 : ∑ n : Fin 2048, (fun n : ℕ => if h : n < 2048 then g ⟨n, h⟩ else 0) n.val = ∑ n : Fin 2048, g n :=
    Finset.sum_congr rfl fun n _ => dif_pos n.isLt
  rw [zero_add, h1, sum_blocks_to 4 512 2048 (by norm_num) (fun n : ℕ => if h : n < 2048 then g ⟨n, h⟩ else 0), h2]

/-- A tile whose blocks are pieces of the argument arrays — its 512 rows the positions `p r` of batch row `b`, its
    hidden-state block that row's projection, its weight blocks the upper half of the first matrix, the biases
    and the output weights — adds the weighted encoder entries of those positions. -/
theorem tile_of_blocks (enc : (⟨3, ![32, 2048, 1024]⟩ : Shape).Idx → EReal) (hid : (⟨3, ![1, 32, 1024]⟩ : Shape).Idx → EReal)
    (W1 : (⟨2, ![2048, 512]⟩ : Shape).Idx → EReal) (b1 : (⟨1, ![512]⟩ : Shape).Idx → EReal)
    (W2 : (⟨2, ![512, 1]⟩ : Shape).Idx → EReal) (b2 : (⟨1, ![1]⟩ : Shape).Idx → EReal) (b : Fin 32) (p : Fin 512 → Fin 2048)
    (x0 : (⟨3, ![1, 512, 1024]⟩ : Shape).Idx → EReal) (x1 : (⟨3, ![1, 1, 512]⟩ : Shape).Idx → EReal)
    (x2 : (⟨2, ![1024, 512]⟩ : Shape).Idx → EReal) (x3 : (⟨1, ![512]⟩ : Shape).Idx → EReal)
    (x4 : (⟨2, ![512, 1]⟩ : Shape).Idx → EReal) (x5 : (⟨1, ![1]⟩ : Shape).Idx → EReal)
    (h0 : ∀ (r : Fin 512) (q : Fin 1024), x0 (ix3 0 r q) = enc (ix3 b (p r) q))
    (h1 : ∀ j : Fin 512, x1 (ix3 0 0 j) = hproj hid W1 b j)
    (h2 : ∀ (q : Fin 1024) (j : Fin 512), x2 (ix2 q j) = W1 (ix2 (hi q) j))
    (h3 : ∀ j : Fin 512, x3 (ix1 j) = b1 (ix1 j))
    (h4 : ∀ j : Fin 512, x4 (ix2 j 0) = W2 (ix2 j 0))
    (h5 : x5 (ix1 0) = b2 (ix1 0)) (e : Fin 1024) :
    tile x0 x1 x2 x3 x4 x5 e = ∑ r : Fin 512, weight enc hid W1 b1 W2 b2 b (p r) * enc (ix3 b (p r) e) := by
  unfold tile weight
  refine Finset.sum_congr rfl fun r _ => ?_
  have e0 : (fun q => x0 (ix3 0 r q)) = fun q => enc (ix3 b (p r) q) := funext (h0 r)
  have e1 : (fun j => x1 (ix3 0 0 j)) = hproj hid W1 b := funext h1
  have e2 : (fun q j => x2 (ix2 q j)) = fun q j => W1 (ix2 (hi q) j) := funext fun q => funext (h2 q)
  have e3 : (fun j => x3 (ix1 j)) = fun j => b1 (ix1 j) := funext h3
  have e4 : (fun j => x4 (ix2 j 0)) = fun j => W2 (ix2 j 0) := funext h4
  rw [e0, e1, e2, e3, e4, h5, h0 r e]

end Cert.AttnCtx
-- ==== Proof.KernelValue.lean ====
/-
  The kernel's result is the specification's context.

  The output block of batch row `b` is reset at the row's first grid point and receives one tile at each of
  its four points, `4·b … 4·b + 3`; it is written back after the last. What it holds then is zero plus the
  four tiles' sums, and tile `s` sums the weighted encoder entries of positions `512·s … 512·s + 511`, so the
  block holds the sum over all 2048 positions: the context's row `b`.
-/
import proofs.«124127_j40510131535961_1_alg».proof.Proof.Gen.KernelIdeal.Value
import proofs.«124127_j40510131535961_1_alg».proof.Proof.KernelTile
import proofs.«124127_j40510131535961_1_alg».proof.Proof.KernelBlocks
import proofs.«124127_j40510131535961_1_alg».proof.Proof.TileSum
import proofs.«124127_j40510131535961_1_alg».proof.Proof.Spec
import Idealize.ShloMosaic.Lib.Pipeline.Value
import Idealize.ShloMosaic.Lib.ValueIdx

noncomputable section

open scoped BigOperators

namespace Cert.AttnCtx.KernelValue

open Cert.KernelIdeal Cert.KernelIdeal.Gen Cert.KernelIdeal.Value Cert.AttnCtx Idealize.ShloMosaic
  Idealize.ShloMosaic.TcCoe Idealize.SL.Sem Idealize.ShloMosaic.ValueIdx

variable (m : (ℓ : Loc nD τ sig) → Buf (Elt Ideal) ℓ) (ρ : Dev nD → PrngReg)

/-- What grid point `n` adds to entry `e` of its output block (zero past the grid, where it is never read). -/
def tileAt (c : Dev nD) (n : ℕ) (e : Fin 1024) : EReal :=
  if h : n < cfg0.N then
    tile (iblk m c 0 ⟨n, h⟩) (iblk m c 1 ⟨n, h⟩) (iblk m c 2 ⟨n, h⟩) (iblk m c 3 ⟨n, h⟩) (iblk m c 4 ⟨n, h⟩)
      (iblk m c 5 ⟨n, h⟩) e
  else 0

/-- An index of the output block is `(0, 0, e)`. -/
theorem blockIdx (y : S1x1x1024.Idx) : ∃ e : Fin 1024, y = ix3 (0 : Fin 1) (0 : Fin 1) e ∧ y 2 = e := by
  obtain ⟨u0, u1, e, rfl⟩ : ∃ (u0 u1 : Fin 1) (e : Fin 1024), y = ix3 u0 u1 e := ⟨y 0, y 1, y 2, eq_ix3 y⟩
  obtain rfl : u0 = 0 := Subsingleton.elim _ _
  obtain rfl : u1 = 0 := Subsingleton.elim _ _
  exact ⟨e, rfl, rfl⟩

/-- A point that steps the accumulation adds its tile. -/
theorem step_at (c : Dev nD) (n : ℕ) (h : n < cfg0.N) (acc : Vec Ideal S1x1x1024 .f32) (y : S1x1x1024.Idx) :
    step6 m c n h acc y = acc y + tileAt m c n (y 2) := by
  obtain ⟨e, rfl, he⟩ := blockIdx y
  rw [he]
  unfold step6 tileAt
  rw [dif_pos h]
  exact Tile.step_apply (iblk m c 0 ⟨n, h⟩) (iblk m c 2 ⟨n, h⟩) (iblk m c 1 ⟨n, h⟩) (iblk m c 3 ⟨n, h⟩)
    (iblk m c 4 ⟨n, h⟩) (iblk m c 5 ⟨n, h⟩) acc e

/-- The point that resets the block leaves zero plus its tile. -/
theorem reset_at (c : Dev nD) (n : ℕ) (h : n < cfg0.N) (y : S1x1x1024.Idx) :
    reset6 m c n h y = 0 + tileAt m c n (y 2) := by
  obtain ⟨e, rfl, he⟩ := blockIdx y
  rw [he]
  unfold reset6 tileAt
  rw [dif_pos h]
  refine (Tile.step_apply (iblk m c 0 ⟨n, h⟩) (iblk m c 2 ⟨n, h⟩) (iblk m c 1 ⟨n, h⟩) (iblk m c 3 ⟨n, h⟩)
    (iblk m c 4 ⟨n, h⟩) (iblk m c 5 ⟨n, h⟩) (k0_pay2 (F := Ideal)) e).trans ?_
  rw [Tile.pay2_apply]

/-- The result array at `(b, 0, e)`: zero plus the tiles of points `4·b … 4·b + 3`. -/
theorem G6_apply (c : Dev nD) (b : Fin 32) (u : Fin 1) (e : Fin 1024) :
    G6 m c (ix3 b u e) = 0 + ∑ s ∈ Finset.range (3 + 1), tileAt m c (4 * b.val + s) e := by
  have hN : cfg0.N = 128 := N_0
  have hb : b.val < 32 := b.isLt
  have hu : u.val < 1 := u.isLt
  have he : e.val < 1024 := e.isLt
  have hr : run6Of (ix3 b u e) = b.val := by
    show 1 * (b.val / 1 - 0) + 1 * (u.val / 1 - 0) + 1 * (e.val / 1024 - 0) = b.val
    omega
  have hl : (loc6Of (ix3 b u e)) 2 = e := Fin.ext (Nat.mod_eq_of_lt he)
  have hlt : 4 * run6Of (ix3 b u e) + 3 < cfg0.N := by rw [hr, hN]; omega
  unfold G6
  rw [dif_pos hlt]
  have key := Pipeline.accAt_add_apply (reset6 m c) (step6 m c) (fun _ => (0 : EReal)) (fun n y => tileAt m c n (y 2))
    (4 * run6Of (ix3 b u e)) 3 (fun h y => reset_at m c _ h y) (fun n h acc y _ _ => step_at m c n h acc y) 3 le_rfl hlt
    (loc6Of (ix3 b u e))
  rw [key]
  show (0 : EReal) + ∑ s ∈ Finset.range (3 + 1), tileAt m c (4 * run6Of (ix3 b u e) + s) ((loc6Of (ix3 b u e)) 2) = _
  rw [hr, hl]

/-- THE RESULT ARRAY is the context of the argument arrays. -/
theorem G6_eq (c : Dev nD) : G6 m c = ctx (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  funext i
  obtain ⟨b, u, e, rfl⟩ : ∃ (b : Fin 32) (u : Fin 1) (e : Fin 1024), i = ix3 b u e := ⟨i 0, i 1, i 2, eq_ix3 i⟩
  rw [G6_apply, ctx_apply]
  have hN : cfg0.N = 128 := N_0
  have hb : b.val < 32 := b.isLt
  refine sum_four_tiles
    (fun s => weight (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) b s * (m ((c : Thread nD τ).loc main_arg0)) (ix3 b s e))
    (fun n => tileAt m c n e) (4 * b.val) (fun s hs => ?_)
  have hlt : 4 * b.val + s < cfg0.N := by rw [hN]; omega
  show tileAt m c (4 * b.val + s) e = _
  unfold tileAt
  rw [dif_pos hlt]
  have hp : ∀ r : Fin 512, s * 512 + r.val < 2048 := fun r => by have := r.isLt; omega
  refine (tile_of_blocks (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) b (fun r => ⟨s * 512 + r.val, hp r⟩)
    (iblk m c 0 ⟨4 * b.val + s, hlt⟩) (iblk m c 1 ⟨4 * b.val + s, hlt⟩) (iblk m c 2 ⟨4 * b.val + s, hlt⟩)
    (iblk m c 3 ⟨4 * b.val + s, hlt⟩) (iblk m c 4 ⟨4 * b.val + s, hlt⟩) (iblk m c 5 ⟨4 * b.val + s, hlt⟩)
    (fun r q => Blocks.blk0_apply m c ⟨4 * b.val + s, hlt⟩ r q b ⟨s * 512 + r.val, hp r⟩
      (by show b.val = (4 * b.val + s) / 4; omega) (by show s * 512 + r.val = (4 * b.val + s) % 4 * 512 + r.val; omega))
    (fun j => Blocks.blk1_apply m c ⟨4 * b.val + s, hlt⟩ j b (by show b.val = (4 * b.val + s) / 4; omega))
    (fun q j => Blocks.blk2_apply m c ⟨4 * b.val + s, hlt⟩ q j)
    (fun j => Blocks.blk3_apply m c ⟨4 * b.val + s, hlt⟩ j)
    (fun j => Blocks.blk4_apply m c ⟨4 * b.val + s, hlt⟩ j)
    (Blocks.blk5_apply m c ⟨4 * b.val + s, hlt⟩) e).trans ?_
  exact Finset.sum_congr rfl fun r _ => by rw [dif_pos (hp r)]

/-- The kernel's run, read: the result array at the context of the arguments, the arguments unchanged. -/
theorem run : θ_run defs (onTc (τ := τ) (main (F := Ideal))) ⟨m, fun _ => 0, ρ⟩ fun r => ∀ c : Dev nD,
      r.2.mem ((c : Thread nD τ).loc main_v7) = ctx (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (G6_eq m c), (h c).2⟩) (Cert.KernelIdeal.Value.run (F := Ideal) m ρ)

end Cert.AttnCtx.KernelValue

end
-- ==== Proof.RefScore.lean ====
/-
  The reference's logit of one position, read through its host operations.

  The reference joins the hidden vector (repeated along the sequence) and the encoder row into one row of 2048
  entries and multiplies it by the whole first weight matrix. Entry `k < 1024` of the joined row is the hidden
  vector's, entry `1024 + q` the encoder row's, so the product splits at 1024 into the projection of the hidden
  state plus the encoder row against the upper half of the weights — the kernel's two summands in the other
  order; addition on the extended reals is commutative, so they agree with no condition on the entries. The
  bias, the leaky rectifier, the second product and its bias are then entry by entry the specification's.
-/
import proofs.«124127_j40510131535961_1_alg».proof.Proof.Gen.ReferenceIdeal.Read
import proofs.«124127_j40510131535961_1_alg».proof.Proof.Spec
import Idealize.ShloMosaic.Lib.Pipeline.Value
import Idealize.ShloMosaic.Lib.ValueIdx
import Idealize.ShloMosaic.PureOps.Ideal.Laws

noncomputable section

open scoped BigOperators

namespace Cert.AttnCtx.Ref

open Cert.ReferenceIdeal Cert.ReferenceIdeal.Gen Cert.ReferenceIdeal.Read Cert.AttnCtx Idealize.ShloMosaic
  Idealize.ShloMosaic.ValueIdx

variable (x0 : (⟨S32x2048x1024, .f32⟩ : BufTy).Contents (Elt Ideal)) (x1 : (⟨S1x32x1024, .f32⟩ : BufTy).Contents (Elt Ideal))
  (x2 : (⟨S2048x512, .f32⟩ : BufTy).Contents (Elt Ideal)) (x3 : (⟨S512, .f32⟩ : BufTy).Contents (Elt Ideal))
  (x4 : (⟨S512x1, .f32⟩ : BufTy).Contents (Elt Ideal)) (x5 : (⟨S1, .f32⟩ : BufTy).Contents (Elt Ideal))

/-! ## The index maps of the two products at a position given by coordinates -/

theorem lidx3 (b : Fin 32) (s : Fin 2048) (j : Fin 512) (k : Fin 2048) : lidx_main_v3 (ix3 b s j) k = ix3 b s k :=
  funext fun a => Fin.ext (by match a with | ⟨0, _⟩ => rfl | ⟨1, _⟩ => rfl | ⟨2, _⟩ => rfl)
theorem ridx3 (b : Fin 32) (s : Fin 2048) (j : Fin 512) (k : Fin 2048) : ridx_main_v3 (ix3 b s j) k = ix2 k j :=
  funext fun a => Fin.ext (by match a with | ⟨0, _⟩ => rfl | ⟨1, _⟩ => rfl)
theorem lidx12 (b : Fin 32) (s : Fin 2048) (u : Fin 1) (k : Fin 512) : lidx_main_v12 (ix3 b s u) k = ix3 b s k :=
  funext fun a => Fin.ext (by match a with | ⟨0, _⟩ => rfl | ⟨1, _⟩ => rfl | ⟨2, _⟩ => rfl)
theorem ridx12 (b : Fin 32) (s : Fin 2048) (u : Fin 1) (k : Fin 512) : ridx_main_v12 (ix3 b s u) k = ix2 k u :=
  funext fun a => Fin.ext (by match a with | ⟨0, _⟩ => rfl | ⟨1, _⟩ => rfl)

/-! ## The joined row -/

/-- Its first 1024 entries are the hidden vector of the batch row. -/
theorem joined_lo (b : Fin 32) (s : Fin 2048) (q : Fin 1024) :
    val_main_v2 (F := Ideal) x0 x1 (ix3 b s (lo q)) = x1 (ix3 (0 : Fin 1) b q) := by
  unfold val_main_v2
  refine (concatenate_pair_apply_left _ _ _ concatenates_S32x2048x1024_S32x2048x1024_S32x2048x2048_d2 (ix3 b s (lo q)) rfl
    (ix3 b s q) (fun a => (by match a with | ⟨0, _⟩ => rfl | ⟨1, _⟩ => rfl | ⟨2, _⟩ => rfl))).trans ?_
  rw [val_main_v1_apply, val_main_v0_apply]
  exact congrArg x1 (funext fun a => Fin.ext (by match a with | ⟨0, _⟩ => rfl | ⟨1, _⟩ => rfl | ⟨2, _⟩ => rfl))

/-- Its last 1024 entries are the encoder row. -/
theorem joined_hi (b : Fin 32) (s : Fin 2048) (q : Fin 1024) :
    val_main_v2 (F := Ideal) x0 x1 (ix3 b s (hi q)) = x0 (ix3 b s q) := by
  unfold val_main_v2
  exact concatenate_pair_apply_right _ _ _ concatenates_S32x2048x1024_S32x2048x1024_S32x2048x2048_d2 (ix3 b s (hi q)) rfl rfl
    (ix3 b s q) (fun a hne => by
      match a with
      | ⟨0, _⟩ => rfl
      | ⟨1, _⟩ => rfl
      | ⟨2, _⟩ => exact absurd rfl hne)
    (by show q.val + 1024 = 1024 + q.val; omega)

/-! ## The hidden pre-activation, the rectifier, the logit -/

theorem ref_pre (b : Fin 32) (s : Fin 2048) (j : Fin 512) :
    val_main_v6 (F := Ideal) x0 x1 x2 x3 (ix3 b s j)
      = (∑ q : Fin 1024, x0 (ix3 b s q) * x2 (ix2 (hi q) j)) + hproj x1 x2 b j + x3 (ix1 j) := by
  rw [val_main_v6_apply, val_main_v3_apply, val_main_v5_apply, val_main_v4_apply, Ideal.addf_def, sum_halves]
  unfold hproj
  refine congrArg₂ (fun a b : EReal => a + b) ?_ (congrArg x3 (funext fun a => Fin.ext (by match a with | ⟨0, _⟩ => rfl)))
  rw [add_comm]
  refine congrArg₂ (fun a b : EReal => a + b) (Finset.sum_congr rfl fun q _ => ?_) (Finset.sum_congr rfl fun q _ => ?_)
  · rw [lidx3, ridx3, joined_hi]
  · rw [lidx3, ridx3, joined_lo]

theorem ref_leaky (i : S32x2048x512.Idx) :
    val_main_v11 (F := Ideal) x0 x1 x2 x3 i = leaky (val_main_v6 (F := Ideal) x0 x1 x2 x3 i) := by
  rw [val_main_v11_apply, val_main_v8_apply, val_main_v10_apply, val_main_v7_apply, val_main_v9_apply,
    val_main_cst_apply, val_main_cst_0_apply]
  rfl

/-- The reference's logit of position `s` of batch row `b` is the specification's. -/
theorem ref_score (b : Fin 32) (s : Fin 2048) (u : Fin 1) :
    val_main_v15 (F := Ideal) x0 x1 x2 x3 x4 x5 (ix3 b s u)
      = score (fun q => x0 (ix3 b s q)) (fun q j => x2 (ix2 (hi q) j)) (hproj x1 x2 b) (fun j => x3 (ix1 j))
          (fun j => x4 (ix2 j 0)) (x5 (ix1 0)) := by
  obtain rfl : u = 0 := Subsingleton.elim _ _
  rw [val_main_v15_apply, val_main_v12_apply, val_main_v14_apply, val_main_v13_apply, Ideal.addf_def]
  unfold score
  refine congrArg₂ (fun a b : EReal => a + b) (Finset.sum_congr rfl fun j _ => ?_)
    (congrArg x5 (funext fun a => Fin.ext (by match a with | ⟨0, _⟩ => rfl)))
  rw [lidx12, ridx12, ref_leaky, ref_pre]

end Cert.AttnCtx.Ref

end
-- ==== Proof.RefValue.lean ====
/-
  The reference's result is the specification's context.

  Along the reference's softmax axis there is one logit per position, so the maximum over that axis folded from
  −∞ (and maximised once more against −∞) is the logit itself, and the sum of the shifted exponentials over the
  axis, from zero, is the one exponential: the weight is `soft1` of the logit. The weights are then re-laid from
  [32, 2048, 1] to [32, 1, 2048] (the same row-major positions) and contracted against the encoder over the 2048
  positions, batch row by batch row.
-/
import proofs.«124127_j40510131535961_1_alg».proof.Proof.RefScore
import proofs.«124127_j40510131535961_1_alg».proof.Proof.Spec
import Idealize.ShloMosaic.Lib.Pipeline.Value
import Idealize.ShloMosaic.Lib.ValueIdx
import Idealize.ShloMosaic.PureOps.Ideal.Laws

noncomputable section

open scoped BigOperators

namespace Cert.AttnCtx.Ref

open Cert.ReferenceIdeal Cert.ReferenceIdeal.Gen Cert.ReferenceIdeal.Read Cert.AttnCtx Idealize.ShloMosaic
  Idealize.ShloMosaic.ValueIdx

variable (x0 : (⟨S32x2048x1024, .f32⟩ : BufTy).Contents (Elt Ideal)) (x1 : (⟨S1x32x1024, .f32⟩ : BufTy).Contents (Elt Ideal))
  (x2 : (⟨S2048x512, .f32⟩ : BufTy).Contents (Elt Ideal)) (x3 : (⟨S512, .f32⟩ : BufTy).Contents (Elt Ideal))
  (x4 : (⟨S512x1, .f32⟩ : BufTy).Contents (Elt Ideal)) (x5 : (⟨S1, .f32⟩ : BufTy).Contents (Elt Ideal))

/-- A fold over a one-element index type is one application of the operation. -/
theorem fold_one {α : Type} (op : α → α → α) [Std.Commutative op] [Std.Associative op] (z : α) (f : Fin 1 → α) :
    (Finset.univ : Finset (Fin 1)).fold op z f = op (f 0) z := by
  rw [Finset.univ_unique, Finset.fold_singleton]
  rfl

/-- The maximum along the one-entry axis, folded from −∞, is the logit. -/
theorem ref_max (b : Fin 32) (s : Fin 2048) :
    val_main_v16 (F := Ideal) x0 x1 x2 x3 x4 x5 (ix2 b s) = val_main_v15 (F := Ideal) x0 x1 x2 x3 x4 x5 (ix3 b s (0 : Fin 1)) := by
  have hR : S32x2048x1.Reduces [2] S32x2048 := by decide
  unfold val_main_v16
  rw [Host.reduce_eq_fold_single FloatOps.maximumf _ _ reducesTo_S32x2048x1_S32x2048_d2 hR h_S_ (ix2 b s)]
  refine (fold_one FloatOps.maximumf _ _).trans ?_
  show max (val_main_v15 (F := Ideal) x0 x1 x2 x3 x4 x5 (hR.lift (ix2 b s) (0 : Fin 1))) (Ideal.ofBits .f32 0xFF800000#32) = _
  rw [neg_inf]
  refine (max_eq_left bot_le).trans (congrArg (val_main_v15 (F := Ideal) x0 x1 x2 x3 x4 x5) (funext fun a => Fin.ext ?_))
  match a with
  | ⟨0, _⟩ => rfl
  | ⟨1, _⟩ => rfl
  | ⟨2, _⟩ => rfl

/-- The shifted exponential of a position. -/
theorem ref_exp (b : Fin 32) (s : Fin 2048) (u : Fin 1) :
    val_main_v21 (F := Ideal) x0 x1 x2 x3 x4 x5 (ix3 b s u)
      = Ideal.exp (val_main_v15 (F := Ideal) x0 x1 x2 x3 x4 x5 (ix3 b s (0 : Fin 1))
          - val_main_v15 (F := Ideal) x0 x1 x2 x3 x4 x5 (ix3 b s (0 : Fin 1))) := by
  obtain rfl : u = 0 := Subsingleton.elim _ _
  rw [val_main_v21_apply, val_main_v20_apply, val_main_v19_apply, val_main_v18_apply, val_main_v17_apply,
    val_main_cst_2_apply, Ideal.hostUnary_exp_def, Ideal.subf_def, Ideal.maximumf_def, Ideal.ofBits_def, neg_inf,
    max_eq_right bot_le]
  have ei : idx_main_v19 (ix3 b s (0 : Fin 1)) = ix2 b s := funext fun a => Fin.ext (by match a with | ⟨0, _⟩ => rfl | ⟨1, _⟩ => rfl)
  rw [ei, ref_max]

/-- The sum of the shifted exponentials along the one-entry axis is the one exponential. -/
theorem ref_den (b : Fin 32) (s : Fin 2048) :
    val_main_v22 (F := Ideal) x0 x1 x2 x3 x4 x5 (ix2 b s)
      = Ideal.exp (val_main_v15 (F := Ideal) x0 x1 x2 x3 x4 x5 (ix3 b s (0 : Fin 1))
          - val_main_v15 (F := Ideal) x0 x1 x2 x3 x4 x5 (ix3 b s (0 : Fin 1))) := by
  rw [val_main_v22_apply, val_main_cst_3_apply, Ideal.ofBits_def, Ideal.ofBits_zero_f32, zero_add, Fin.sum_univ_one]
  have ei : idx_main_v22 (ix2 b s) (0 : Fin 1) = ix3 b s (0 : Fin 1) := funext fun a => Fin.ext (by match a with | ⟨0, _⟩ => rfl | ⟨1, _⟩ => rfl | ⟨2, _⟩ => rfl)
  rw [ei, ref_exp]

/-- The reference's weight of position `s` of batch row `b` is the specification's. -/
theorem ref_weight (b : Fin 32) (s : Fin 2048) (u : Fin 1) :
    val_main_v24 (F := Ideal) x0 x1 x2 x3 x4 x5 (ix3 b s u) = weight x0 x1 x2 x3 x4 x5 b s := by
  rw [val_main_v24_apply, val_main_v23_apply, Ideal.hostDivf_def, ref_exp]
  have ei : idx_main_v23 (ix3 b s u) = ix2 b s := funext fun a => Fin.ext (by match a with | ⟨0, _⟩ => rfl | ⟨1, _⟩ => rfl)
  rw [ei, ref_den, ref_score]
  rfl

/-- The reference's result, as one function of its arguments, is the context. -/
theorem ref_ctx : val_main_v26 (F := Ideal) x0 x1 x2 x3 x4 x5 = ctx x0 x1 x2 x3 x4 x5 := by
  funext i
  obtain ⟨b, u, e, rfl⟩ : ∃ (b : Fin 32) (u : Fin 1) (e : Fin 1024), i = ix3 b u e := ⟨i 0, i 1, i 2, eq_ix3 i⟩
  rw [val_main_v26_apply, ctx_apply]
  refine Finset.sum_congr rfl fun k _ => ?_
  have el : idx_main_v25 (lidx_main_v26 (ix3 b u e) k) = ix3 b k (0 : Fin 1) := funext fun a => Fin.ext (by
    have hu : u.val = 0 := by omega
    have hk : k.val < 2048 := k.isLt
    match a with
    | ⟨0, _⟩ => show ((b.val * 1 + u.val) * 2048 + k.val) / 2048 = b.val; omega
    | ⟨1, _⟩ => show ((b.val * 1 + u.val) * 2048 + k.val) / 1 % 2048 = k.val; omega
    | ⟨2, _⟩ => rfl)
  have er : ridx_main_v26 (ix3 b u e) k = ix3 b k e := funext fun a => Fin.ext (by match a with | ⟨0, _⟩ => rfl | ⟨1, _⟩ => rfl | ⟨2, _⟩ => rfl)
  rw [val_main_v25_apply, el, er, ref_weight]

end Cert.AttnCtx.Ref

end
-- ==== Proof.lean ====
/-
  Additive attention with a softmax over an axis of extent one: the tiled kernel against the plain reference.

  Both programs compute, for batch row `b` and output column `e`,
      ctx[b, 0, e] = Σ_{s < 2048} soft1 (score b s) · enc[b, s, e],
  where `score b s` is the logit of position `s` — a hidden layer with a leaky rectifier over the joined
  (hidden state, encoder row) vector, then a projection to one number — and `soft1 x = exp (x − x) / exp (x − x)`
  is the softmax of that one logit along an axis holding nothing else (Proof/Spec.lean).

  The kernel walks a grid of 32 × 4 points, four tiles of 512 positions per batch row: it projects the hidden
  state once on the host, multiplies each encoder tile by the upper half of the first weight matrix, adds the
  projection and the bias, and accumulates the weighted column sums of the tile into the row's output block,
  reset at the row's first tile (Proof/KernelTile.lean, Proof/KernelBlocks.lean, Proof/KernelValue.lean). The
  reference joins hidden state and encoder row and multiplies by the whole matrix, then contracts the weights
  against the encoder over all positions at once (Proof/RefScore.lean, Proof/RefValue.lean).

  Two laws join them, both of the addition alone, so neither needs the inputs to be finite: the 2048-term
  product row splits at 1024 into the two halves the kernel adds in the other order, and zero plus four
  consecutive sums of 512 terms is the sum of all 2048 (Proof/TileSum.lean). A change of float format is the
  identity on the extended reals, and the weight function is the same on both sides, so it is never evaluated.

  The idealized kernel is the printed kernel read at the extended reals with no rewrite, so there is nothing to
  preserve; the three frames are the generated runs with the results dropped.
-/
import proofs.«124127_j40510131535961_1_alg».proof.Defs
import proofs.«124127_j40510131535961_1_alg».proof.Proof.Gen.Kernel.Frame
import proofs.«124127_j40510131535961_1_alg».proof.Proof.Gen.KernelIdeal.Value
import proofs.«124127_j40510131535961_1_alg».proof.Proof.Gen.Pre_finite_inputs
import proofs.«124127_j40510131535961_1_alg».proof.Proof.Gen.ReferenceIdeal.Run
import proofs.«124127_j40510131535961_1_alg».proof.Proof.Gen.ReferenceIdeal.Read
import proofs.«124127_j40510131535961_1_alg».proof.Proof.KernelValue
import proofs.«124127_j40510131535961_1_alg».proof.Proof.RefValue
import Idealize.ShloMosaic.Adequacy
import Idealize.ShloMosaic.Init

noncomputable section

namespace Cert.Proof

open Idealize.ShloMosaic Idealize.SL.Sem

theorem frame_KernelIdeal : frame_KernelIdeal := fun m ρ _ =>
  (θ_run Cert.KernelIdeal.defs _ _).mono (fun _ h c => (h c).2) (Cert.KernelIdeal.Value.run (F := Ideal) m ρ)

theorem frame_ReferenceIdeal : frame_ReferenceIdeal := fun m ρ _ =>
  (θ_run Cert.ReferenceIdeal.defs _ _).mono (fun _ h c => (h c).2) (Cert.ReferenceIdeal.Value.run (F := Ideal) m ρ)

/-- Both runs end with the result array at the context of the (agreeing) argument arrays. -/
theorem algebraic_KernelIdeal_ReferenceIdeal : algebraic_KernelIdeal_ReferenceIdeal := by
  intro m ρ m' ρ' _ hagree
  refine ⟨fun c => Cert.AttnCtx.ctx
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)),
    Cert.AttnCtx.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v26_eq, Cert.AttnCtx.Ref.ref_ctx, (hagree c).1, (hagree c).2.1, (hagree c).2.2.1,
    (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, frame_KernelIdeal, frame_ReferenceIdeal, (trivial : preserves_Kernel_KernelIdeal), algebraic_KernelIdeal_ReferenceIdeal⟩

end Cert.Proof

end
